-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg15 : FVec F S128x128 .f32) (main_arg16 : FVec F S128 .f32) (main_arg17 : FVec F S128x1 .f32) (main_arg18 : FVec F S1 .f32) (main_v33 : IVec S_ 1) : IVec S_ 1 :=
  let main_v34 : FVec F S128x128 .f32 := Host.absf main_arg15
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg16
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg17
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg18
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg12 : FVec F S128x128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg12
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg13
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg14
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg15 main_arg16 main_arg17 main_arg18 main_v33

def fn {F : FTy → Type} [FloatOps F] (main_arg0 : FVec F S100000x128 .f32) (main_arg1 : IVec S1000000 32) (main_arg2 : IVec S1000000 32) (main_arg3 : IVec S1000000 32) (main_arg4 : IVec S1000000 32) (main_arg5 : IVec S100000 32) (main_arg6 : IVec S100000 32) (main_arg7 : IVec S100000 32) (main_arg8 : IVec S100000 32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg9
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg10
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg11
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg12 main_arg13 main_arg14 main_arg15 main_arg16 main_arg17 main_arg18 main_v13 main_v16
-- ==== Kernel.lean ====
abbrev S100000x128 : Shape := ⟨2, ![100000, 128]⟩
abbrev S1000000 : Shape := ⟨1, ![1000000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1000000x1 : Shape := ⟨2, ![1000000, 1]⟩
abbrev S1000000x128 : Shape := ⟨2, ![1000000, 128]⟩
abbrev S100000x1 : Shape := ⟨2, ![100000, 1]⟩
abbrev S1x128 : Shape := ⟨2, ![1, 128]⟩
abbrev S5000x128 : Shape := ⟨2, ![5000, 128]⟩
abbrev S200000x128 : Shape := ⟨2, ![200000, 128]⟩
abbrev S1x1 : Shape := ⟨2, ![1, 1]⟩
abbrev S200000x1 : Shape := ⟨2, ![200000, 1]⟩
abbrev S5000x1 : Shape := ⟨2, ![5000, 1]⟩

abbrev nBuf : Space → Nat
  | .hbm => 116
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S100000, .i32⟩
  | .hbm, ⟨6, _⟩ => ⟨S100000, .i32⟩
  | .hbm, ⟨7, _⟩ => ⟨S100000, .i32⟩
  | .hbm, ⟨8, _⟩ => ⟨S100000, .i32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x128, .f32⟩
  | .hbm, ⟨28, _⟩ => ⟨S_, .f32⟩
  | .hbm, ⟨29, _⟩ => ⟨S100000x128, .f32⟩
  | .hbm, ⟨30, _⟩ => ⟨S1000000x1, .i32⟩
  | .hbm, ⟨31, _⟩ => ⟨S100000x128, .f32⟩
  | .hbm, ⟨32, _⟩ => ⟨S_, .f32⟩
  | .hbm, ⟨33, _⟩ => ⟨S1000000, .f32⟩
  | .hbm, ⟨34, _⟩ => ⟨S_, .f32⟩
  | .hbm, ⟨35, _⟩ => ⟨S100000, .f32⟩
  | .hbm, ⟨36, _⟩ => ⟨S1000000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x128, .f32⟩
  | .hbm, ⟨55, _⟩ => ⟨S_, .f32⟩
  | .hbm, ⟨56, _⟩ => ⟨S100000x128, .f32⟩
  | .hbm, ⟨57, _⟩ => ⟨S1000000x1, .i32⟩
  | .hbm, ⟨58, _⟩ => ⟨S100000x128, .f32⟩
  | .hbm, ⟨59, _⟩ => ⟨S_, .f32⟩
  | .hbm, ⟨60, _⟩ => ⟨S1000000, .f32⟩
  | .hbm, ⟨61, _⟩ => ⟨S_, .f32⟩
  | .hbm, ⟨62, _⟩ => ⟨S100000, .f32⟩
  | .hbm, ⟨63, _⟩ => ⟨S1000000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S_, .i32⟩
  | .hbm, ⟨74, _⟩ => ⟨S100000, .i32⟩
  | .hbm, ⟨75, _⟩ => ⟨S100000, .i1⟩
  | .hbm, ⟨76, _⟩ => ⟨S_, .i32⟩
  | .hbm, ⟨77, _⟩ => ⟨S100000, .i32⟩
  | .hbm, ⟨78, _⟩ => ⟨S100000, .i32⟩
  | .hbm, ⟨79, _⟩ => ⟨S100000, .i32⟩
  | .hbm, ⟨80, _⟩ => ⟨S100000x1, .i32⟩
  | .hbm, ⟨81, _⟩ => ⟨S100000x128, .f32⟩
  | .hbm, ⟨82, _⟩ => ⟨S_, .i32⟩
  | .hbm, ⟨83, _⟩ => ⟨S100000, .i32⟩
  | .hbm, ⟨84, _⟩ => ⟨S100000, .i1⟩
  | .hbm, ⟨85, _⟩ => ⟨S_, .i32⟩
  | .hbm, ⟨86, _⟩ => ⟨S100000, .i32⟩
  | .hbm, ⟨87, _⟩ => ⟨S100000, .i32⟩
  | .hbm, ⟨88, _⟩ => ⟨S100000, .i32⟩
  | .hbm, ⟨89, _⟩ => ⟨S100000x1, .i32⟩
  | .hbm, ⟨90, _⟩ => ⟨S100000x128, .f32⟩
  | .hbm, ⟨91, _⟩ => ⟨S200000x128, .f32⟩
  | .hbm, ⟨92, _⟩ => ⟨S_, .i32⟩
  | .hbm, ⟨93, _⟩ => ⟨S100000, .i32⟩
  | .hbm, ⟨94, _⟩ => ⟨S100000, .i1⟩
  | .hbm, ⟨95, _⟩ => ⟨S_, .i32⟩
  | .hbm, ⟨96, _⟩ => ⟨S100000, .i32⟩
  | .hbm, ⟨97, _⟩ => ⟨S100000, .i32⟩
  | .hbm, ⟨98, _⟩ => ⟨S100000, .i32⟩
  | .hbm, ⟨99, _⟩ => ⟨S100000x1, .i32⟩
  | .hbm, ⟨100, _⟩ => ⟨S100000x128, .f32⟩
  | .hbm, ⟨101, _⟩ => ⟨S_, .i32⟩
  | .hbm, ⟨102, _⟩ => ⟨S100000, .i32⟩
  | .hbm, ⟨103, _⟩ => ⟨S100000, .i1⟩
  | .hbm, ⟨104, _⟩ => ⟨S_, .i32⟩
  | .hbm, ⟨105, _⟩ => ⟨S100000, .i32⟩
  | .hbm, ⟨106, _⟩ => ⟨S100000, .i32⟩
  | .hbm, ⟨107, _⟩ => ⟨S100000, .i32⟩
  | .hbm, ⟨108, _⟩ => ⟨S100000x1, .i32⟩
  | .hbm, ⟨109, _⟩ => ⟨S100000x128, .f32⟩
  | .hbm, ⟨110, _⟩ => ⟨S200000x128, .f32⟩
  | .hbm, ⟨111, _⟩ => ⟨S1x128, .f32⟩
  | .hbm, ⟨112, _⟩ => ⟨S1x1, .f32⟩
  | .hbm, ⟨113, _⟩ => ⟨S200000x1, .f32⟩
  | .hbm, ⟨114, _⟩ => ⟨S100000x1, .f32⟩
  | .hbm, ⟨115, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_c_5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_7 : Ref sig .tc := ⟨.hbm, 59, rfl⟩
abbrev main_v31 : Ref sig .tc := ⟨.hbm, 60, rfl⟩
abbrev main_cst_8 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_9 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_10 : Ref sig .tc := ⟨.hbm, 73, rfl⟩
abbrev main_v42 : Ref sig .tc := ⟨.hbm, 74, rfl⟩
abbrev main_v43 : Ref sig .tc := ⟨.hbm, 75, rfl⟩
abbrev main_c_11 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_12 : Ref sig .tc := ⟨.hbm, 82, rfl⟩
abbrev main_v49 : Ref sig .tc := ⟨.hbm, 83, rfl⟩
abbrev main_v50 : Ref sig .tc := ⟨.hbm, 84, rfl⟩
abbrev main_c_13 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_14 : Ref sig .tc := ⟨.hbm, 92, rfl⟩
abbrev main_v57 : Ref sig .tc := ⟨.hbm, 93, rfl⟩
abbrev main_v58 : Ref sig .tc := ⟨.hbm, 94, rfl⟩
abbrev main_c_15 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_16 : Ref sig .tc := ⟨.hbm, 101, rfl⟩
abbrev main_v64 : Ref sig .tc := ⟨.hbm, 102, rfl⟩
abbrev main_v65 : Ref sig .tc := ⟨.hbm, 103, rfl⟩
abbrev main_c_17 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S100000x128_S100000x128_S200000x128_d0 : Shape.Concatenates [S100000x128, S100000x128] S200000x128 0
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  slices_S200000x1_S100000x1_0_0 : S200000x1.Slices ![0, 0] S100000x1
  slices_S200000x1_S100000x1_100000_0 : S200000x1.Slices ![100000, 0] S100000x1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S5000x128_S128x128_S5000x128_1_0_0_1_n_n_wf : DotDims.WF S5000x128 S128x128 S5000x128 [1] [0] [0] [1] [] []
  gather_S100000x128_S100000x1_S100000x128_1_0_n_n_0_1_1128_wf : GatherDims.WF S100000x128 S100000x1 S100000x128 [1] [0] [] [0] [] 1 ![1, 128]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .f32 = 32 ∨ (Rect.block (s := S200000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S200000x1.size a
  hwx2_6 : ∀ i : grid2.Coords, EltTy.bits .f32 = 32 ∨ (Rect.block (s := S200000x1) S5000x1.size (cc2_transform_6 i) (hinb2_6 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg15) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v74) S5000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S1000000 : Shape := ⟨1, ![1000000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1000000x1 : Shape := ⟨2, ![1000000, 1]⟩
abbrev S1000000x128 : Shape := ⟨2, ![1000000, 128]⟩
abbrev S100000x1 : Shape := ⟨2, ![100000, 1]⟩
abbrev S1x128 : Shape := ⟨2, ![1, 128]⟩
abbrev S1x1 : Shape := ⟨2, ![1, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S1000000, .i32⟩
  | 2 => ⟨S1000000, .i32⟩
  | 3 => ⟨S1000000, .i32⟩
  | 4 => ⟨S1000000, .i32⟩
  | 5 => ⟨S100000, .i32⟩
  | 6 => ⟨S100000, .i32⟩
  | 7 => ⟨S100000, .i32⟩
  | 8 => ⟨S100000, .i32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128, .f32⟩
  | 17 => ⟨S128x1, .f32⟩
  | 18 => ⟨S1, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x128, .f32⟩
  | 28 => ⟨S_, .f32⟩
  | 29 => ⟨S100000x128, .f32⟩
  | 30 => ⟨S1000000x1, .i32⟩
  | 31 => ⟨S100000x128, .f32⟩
  | 32 => ⟨S_, .f32⟩
  | 33 => ⟨S1000000, .f32⟩
  | 34 => ⟨S_, .f32⟩
  | 35 => ⟨S100000, .f32⟩
  | 36 => ⟨S1000000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x128, .f32⟩
  | 62 => ⟨S_, .f32⟩
  | 63 => ⟨S100000x128, .f32⟩
  | 64 => ⟨S1000000x1, .i32⟩
  | 65 => ⟨S100000x128, .f32⟩
  | 66 => ⟨S_, .f32⟩
  | 67 => ⟨S1000000, .f32⟩
  | 68 => ⟨S_, .f32⟩
  | 69 => ⟨S100000, .f32⟩
  | 70 => ⟨S1000000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .i32⟩
  | 85 => ⟨S100000, .i32⟩
  | 86 => ⟨S100000, .i1⟩
  | 87 => ⟨S_, .i32⟩
  | 88 => ⟨S100000, .i32⟩
  | 89 => ⟨S100000, .i32⟩
  | 90 => ⟨S100000, .i32⟩
  | 91 => ⟨S100000x1, .i32⟩
  | 92 => ⟨S100000x128, .f32⟩
  | 93 => ⟨S_, .i32⟩
  | 94 => ⟨S100000, .i32⟩
  | 95 => ⟨S100000, .i1⟩
  | 96 => ⟨S_, .i32⟩
  | 97 => ⟨S100000, .i32⟩
  | 98 => ⟨S100000, .i32⟩
  | 99 => ⟨S100000, .i32⟩
  | 100 => ⟨S100000x1, .i32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x1, .f32⟩
  | 111 => ⟨S1x1, .f32⟩
  | 112 => ⟨S100000x1, .f32⟩
  | 113 => ⟨S100000x1, .f32⟩
  | 114 => ⟨S_, .i32⟩
  | 115 => ⟨S100000, .i32⟩
  | 116 => ⟨S100000, .i1⟩
  | 117 => ⟨S_, .i32⟩
  | 118 => ⟨S100000, .i32⟩
  | 119 => ⟨S100000, .i32⟩
  | 120 => ⟨S100000, .i32⟩
  | 121 => ⟨S100000x1, .i32⟩
  | 122 => ⟨S100000x128, .f32⟩
  | 123 => ⟨S_, .i32⟩
  | 124 => ⟨S100000, .i32⟩
  | 125 => ⟨S100000, .i1⟩
  | 126 => ⟨S_, .i32⟩
  | 127 => ⟨S100000, .i32⟩
  | _ => ⟨S100000x128, .f32⟩

abbrev hbmTy0_1 (i : Nat) : BufTy := match i % 128 with
  | 0 => ⟨S100000, .i32⟩
  | 1 => ⟨S100000, .i32⟩
  | 2 => ⟨S100000x1, .i32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x1, .f32⟩
  | 13 => ⟨S1x1, .f32⟩
  | 14 => ⟨S100000x1, .f32⟩
  | 15 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call0_cst : Ref sig .tc := ⟨.hbm, 50, rfl⟩
abbrev main_call0_v0 : Ref sig .tc := ⟨.hbm, 51, rfl⟩
abbrev main_v25 : Ref sig .tc := ⟨.hbm, 52, rfl⟩
abbrev main_c_4 : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_9 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_10 : Ref sig .tc := ⟨.hbm, 84, rfl⟩
abbrev main_v51 : Ref sig .tc := ⟨.hbm, 85, rfl⟩
abbrev main_v52 : Ref sig .tc := ⟨.hbm, 86, rfl⟩
abbrev main_c_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_12 : Ref sig .tc := ⟨.hbm, 93, rfl⟩
abbrev main_v58 : Ref sig .tc := ⟨.hbm, 94, rfl⟩
abbrev main_v59 : Ref sig .tc := ⟨.hbm, 95, rfl⟩
abbrev main_c_13 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_call1_cst : Ref sig .tc := ⟨.hbm, 107, rfl⟩
abbrev main_call1_v0 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_14 : Ref sig .tc := ⟨.hbm, 114, rfl⟩
abbrev main_v75 : Ref sig .tc := ⟨.hbm, 115, rfl⟩
abbrev main_v76 : Ref sig .tc := ⟨.hbm, 116, rfl⟩
abbrev main_c_15 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_16 : Ref sig .tc := ⟨.hbm, 123, rfl⟩
abbrev main_v82 : Ref sig .tc := ⟨.hbm, 124, rfl⟩
abbrev main_v83 : Ref sig .tc := ⟨.hbm, 125, rfl⟩
abbrev main_c_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_call2_cst : Ref sig .tc := ⟨.hbm, 137, rfl⟩
abbrev main_call2_v0 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  gather_S100000x128_S100000x1_S100000x128_1_0_n_n_0_1_1128_wf : GatherDims.WF S100000x128 S100000x1 S100000x128 [1] [0] [] [0] [] 1 ![1, 128]
  dot_S100000x128_S128x1_S100000x1_1_0_0_1_n_n_wf : DotDims.WF S100000x128 S128x1 S100000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KerRun.lean ====
/-
  The kernel program's run with the final contents of every buffer kept.

  The program is three tiled regions among four stretches of host operations. Its buffers' contents at each boundary
  are a fold from the launch memory: a stretch applies its operations in order; a region leaves each of its arrays
  at what its write-backs leave and everything else as it was. Every weakly fair execution terminates without a
  fault, and at the end every buffer that is not scoped to a region holds the last stage of that fold. The frame
  statement keeps only the argument arrays of this; here all of it is kept, so that the two result arrays can be
  read as well.

  The thread state between segments is: every unscoped buffer held whole at the boundary's contents, the generator
  register at some state, and an empty debt. A host stretch maps it to the same state at the contents after its
  operations; a region's record maps it across the region. So the states chain by reflexivity, up to regrouping
  the last one; the first state is what the launch deals a core; and the last one, read against a final memory,
  says that memory holds the last contents at every unscoped buffer.
-/
import proofs.«105080_j59304908423843_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the last stage of the fold of contents through the program's segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    -- the program is the run of its segments, each pipeline entered once
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    -- the launch's ghost element is the pipelines' own, and no core needs a ghost resource beside it
    (u₀ := initOf (Pipeline.cells cfgs cellOf_inj) (Pipeline.launchToks cfgs cellOf_inj))
    (hu₀ := by
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    -- each segment is entered from what the one before it left; the last state is regrouped: the buffers and the
    -- register on one side, the empty debt on the other
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hbufs, Hreg, Hdebt⟩
      isplitr [Hdebt]
      · isplitl [Hbufs]
        · iexact Hbufs
        · iexact Hreg
      · iexact Hdebt⟩)
    -- a core's first state is made of what the launch deals it: its unscoped buffers, its register, an empty debt
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdebt, -, Hreg, -⟩, -⟩
      imodintro
      isplitl [Hbufs]
      · iexact Hbufs
      · isplitl [Hreg]
        · iexists _; iexact Hreg
        · iexists ∅; iexact Hdebt)
    -- the last state read against a final memory: every unscoped buffer holds the last contents
    (QY := fun c s => ∀ b ∈ Pipeline.ucRefs τ sig, s.mem (((c : Thread nD τ)).1, b) = W7 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W7 m ρ c) s')
      isplitl [Hbufs] <;> iassumption)
    (hQ := fun s h => h)

end Cert.KernelIdeal.KerRun

end
-- ==== Proof.KerFns.lean ====
/-
  The host-side stages that both programs spell with the same operations, named once as functions of their operands:
  the wrapping of negative node ids, the mean of a node's in-neighbours' rows (rows gathered at the edges' sources,
  summed into the edges' targets, divided by the in-degree floored at one), and the rows of a feature array picked
  at a list of node ids. Nothing here is opened: the two programs apply these same functions to the same operands,
  so their values agree as soon as the operands do.
-/
import proofs.«105080_j59304908423843_1_alg».proof.Proof.Gen.KernelIdeal
import Idealize.ShloMosaic.PureOps.Ideal

noncomputable section

namespace Cert.KernelIdeal.Fn

open Cert.KernelIdeal Cert.KernelIdeal.Gen Idealize.ShloMosaic Idealize.ShloMosaic.TcCoe Idealize.SL.Sem Idealize.ShloMosaic.StableHlo

/-- An array of 32-bit words. -/
abbrev IV (s : Shape) : Type := (⟨s, .i32⟩ : BufTy).Contents (Elt Ideal)
/-- An array of extended reals. -/
abbrev FV (s : Shape) : Type := FVec Ideal s .f32

/-- The node ids of an edge list as a column of start indices, a negative id counted from the end. -/
def startsE (idx : IV S1000000) : IV S1000000x1 :=
  broadcastInDim S1000000x1 ![0] bcast_S1000000_S1000000x1_0 (select (cmpi .slt idx (broadcastInDim S1000000 ![] bcast_S_S1000000 (constantI S_ 32 0#32))) (addi idx (broadcastInDim S1000000 ![] bcast_S_S1000000 (constantI S_ 32 100000#32))) idx)

/-- The node ids of a list of candidate edges' end points as a column of start indices, a negative id counted from the end. -/
def startsP (idx : IV S100000) : IV S100000x1 :=
  broadcastInDim S100000x1 ![0] bcast_S100000_S100000x1_0 (select (cmpi .slt idx (broadcastInDim S100000 ![] bcast_S_S100000 (constantI S_ 32 0#32))) (addi idx (broadcastInDim S100000 ![] bcast_S_S100000 (constantI S_ 32 100000#32))) idx)

/-- The mean of the in-neighbours' feature rows: the rows at the edges' sources summed into the edges' targets,
    each row divided by the node's in-degree floored at one. -/
def agg (h : FV S100000x128) (src dst : IV S1000000) : FV S100000x128 :=
  Host.divf (Host.scatterAdd scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 dst) (Host.gather gather_S100000x128_S1000000x1_S1000000x128_1_0_n_n_0_1_1128 h (startsE src))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant (F := Ideal) S_ .f32 0x00000000#32)) (broadcastInDim S1000000x1 ![0] bcast_S1000000_S1000000x1_0 dst) (broadcastInDim S1000000 ![] bcast_S_S1000000 (constant (F := Ideal) S_ .f32 0x3F800000#32))) (broadcastInDim S100000 ![] bcast_S_S100000 (constant (F := Ideal) S_ .f32 0x3F800000#32)))))

/-- The rows of a feature array at a list of node ids. -/
def rows (h : FV S100000x128) (idx : IV S100000) : FV S100000x128 :=
  Host.gather gather_S100000x128_S100000x1_S100000x128_1_0_n_n_0_1_1128 h (startsP idx)

end Cert.KernelIdeal.Fn

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibMatProd.lean ====
/-
  The product of an M×K and a K×N array of extended reals as ONE function of the two arrays: entry (i, q) is the sum over
  k of l(i, k) · r(k, q). A host dot product with plain matrix-product dimension numbers, and a matrix-unit product into
  a zero accumulator, are that function at the ideal instance; and an entry of the product depends only on row i of the
  left operand and column q of the right one, so the product of a block of rows with the right operand is that block of
  rows of the whole product.
-/
import proofs.«105080_j59304908423843_1_alg».proof.Proof.LibDotPlain

noncomputable section

open scoped BigOperators

namespace Idealize.ShloMosaic.MatProd

open Idealize.ShloMosaic Idealize.ShloMosaic.ValueIdx Idealize.ShloMosaic.DotPlain

/-- Entry (i, q) of the product: the sum over k of l(i, k) · r(k, q). -/
def matProd {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

variable {M K N : Nat} {d : DotDims ⟨2, ![M, K]⟩ ⟨2, ![K, N]⟩ ⟨2, ![M, N]⟩}

/-- A host dot product with plain dimension numbers is the product. -/
theorem dotGeneral_eq (h : IsPlain d) (prec : Option ContractPrecision) {φ₁ φ₂ : FTy}
    (l : FVec Ideal ⟨2, ![M, K]⟩ φ₁) (r : FVec Ideal ⟨2, ![K, N]⟩ φ₂) :
    Host.dotGeneral d prec l r = matProd l r :=
  funext fun j => DotPlain.dotGeneral_apply h prec l r j

/-- A matrix-unit product into a zero accumulator is the product, at an entry. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = matProd l r j :=
  DotPlain.matmul_zero_apply h prec l r j

/-- An entry of a product of a block of rows (and a copy of the right operand) is the entry of the whole product whose
    row the block's row is: the sums agree term by term. -/
theorem matProd_of_rows {B : Nat} (lb : (⟨2, ![B, K]⟩ : Shape).Idx → EReal) (rb : (⟨2, ![K, N]⟩ : Shape).Idx → EReal)
    (l : (⟨2, ![M, K]⟩ : Shape).Idx → EReal) (r : (⟨2, ![K, N]⟩ : Shape).Idx → EReal)
    (p : Fin B) (q : Fin N) (i : Fin M)
    (hl : ∀ k : Fin K, lb (ix2 p k) = l (ix2 i k)) (hr : ∀ k : Fin K, rb (ix2 k q) = r (ix2 k q)) :
    matProd lb rb (ix2 p q) = matProd l r (ix2 i q) :=
  Finset.sum_congr rfl fun k _ => by
    show lb (ix2 p k) * rb (ix2 k q) = l (ix2 i k) * r (ix2 k q)
    rw [hl k, hr k]

end Idealize.ShloMosaic.MatProd

end
-- ==== Proof.Spec.lean ====
/-
  What both programs compute, entry by entry, on arrays of extended reals.

  A node's new feature row is  h·W_self + mean·W_neigh + b  (optionally floored at zero), a sum of two matrix
  products and a bias row. A candidate edge's score is  relu((z_src ∘ z_dst)·W₁ + b₁)·W₂ + b₂, where ∘ is the
  entrywise product of the two end points' feature rows. Every entry of either result depends on ONE row of the
  row-indexed operands only; so computing a block of rows against the same weights gives that block of rows of the
  whole result. This is what lets a computation tiled over rows, or run once on two stacks of rows laid end to end,
  agree with the computation done on the whole arrays, with no algebra on the extended reals beyond reading sums
  term by term.
-/
import proofs.«105080_j59304908423843_1_alg».proof.Proof.LibMatProd

noncomputable section

open scoped BigOperators

namespace Cert.Sage

open Idealize.ShloMosaic Idealize.ShloMosaic.ValueIdx Idealize.ShloMosaic.MatProd

/-- An a × b array of extended reals. -/
abbrev Mx (a b : Nat) : Type := (⟨2, ![a, b]⟩ : Shape).Idx → EReal

/-- The value of the single-precision word of zero (the floor of a rectifier). It is the same word in both programs
    and is never evaluated. -/
def zero : EReal := Ideal.ofBits .f32 0x00000000#32

/-- The dense half of a layer: entry (i, q) is  ∑ₖ h(i,k)·Ws(k,q) + ∑ₖ a(i,k)·Wn(k,q) + b(0,q). -/
def dense {M : Nat} (h a : Mx M 128) (Ws Wn : Mx 128 128) (b : Mx 1 128) : Mx M 128 :=
  fun j => matProd h Ws j + matProd a Wn j + b (ix2 (0 : Fin 1) (j 1))

/-- The dense half followed by the rectifier. -/
def denseRelu {M : Nat} (h a : Mx M 128) (Ws Wn : Mx 128 128) (b : Mx 1 128) : Mx M 128 :=
  fun j => max (dense h a Ws Wn b j) zero

/-- The hidden layer of the edge scorer: entry (i, q) is  max(∑ₖ zs(i,k)·zd(i,k)·W₁(k,q) + b₁(0,q), 0). -/
def hidden {M : Nat} (zs zd : Mx M 128) (W1 : Mx 128 128) (b1 : Mx 1 128) : Mx M 128 :=
  fun i => max (matProd (fun i' => zs i' * zd i') W1 i + b1 (ix2 (0 : Fin 1) (i 1))) zero

/-- The edge score: entry (i, 0) is  ∑ₖ hidden(i,k)·W₂(k,0) + b₂(0,0). -/
def score {M : Nat} (zs zd : Mx M 128) (W1 : Mx 128 128) (b1 : Mx 1 128) (W2 : Mx 128 1) (b2 : Mx 1 1) : Mx M 1 :=
  fun j => matProd (hidden zs zd W1 b1) W2 j + b2 (ix2 (0 : Fin 1) (j 1))

/-- An entry of the dense half depends on one row of the two row-indexed operands and one column of the weights and
    bias: row p of a block of rows that are rows i of the whole arrays, against copies of the weights, gives entry
    (i, q) of the whole result. -/
theorem dense_of_rows {B M : Nat} (hb ab : Mx B 128) (Ws' Wn' : Mx 128 128) (b' : Mx 1 128)
    (h a : Mx M 128) (Ws Wn : Mx 128 128) (b : Mx 1 128) (p : Fin B) (q : Fin 128) (i : Fin M)
    (hh : ∀ k : Fin 128, hb (ix2 p k) = h (ix2 i k)) (ha : ∀ k : Fin 128, ab (ix2 p k) = a (ix2 i k))
    (hs : ∀ k : Fin 128, Ws' (ix2 k q) = Ws (ix2 k q)) (hn : ∀ k : Fin 128, Wn' (ix2 k q) = Wn (ix2 k q))
    (hbias : b' (ix2 (0 : Fin 1) q) = b (ix2 (0 : Fin 1) q)) :
    dense hb ab Ws' Wn' b' (ix2 p q) = dense h a Ws Wn b (ix2 i q) := by
  show matProd hb Ws' (ix2 p q) + matProd ab Wn' (ix2 p q) + b' (ix2 (0 : Fin 1) q)
    = matProd h Ws (ix2 i q) + matProd a Wn (ix2 i q) + b (ix2 (0 : Fin 1) q)
  rw [matProd_of_rows hb Ws' h Ws p q i hh hs, matProd_of_rows ab Wn' a Wn p q i ha hn, hbias]

/-- The same with the rectifier. -/
theorem denseRelu_of_rows {B M : Nat} (hb ab : Mx B 128) (Ws' Wn' : Mx 128 128) (b' : Mx 1 128)
    (h a : Mx M 128) (Ws Wn : Mx 128 128) (b : Mx 1 128) (p : Fin B) (q : Fin 128) (i : Fin M)
    (hh : ∀ k : Fin 128, hb (ix2 p k) = h (ix2 i k)) (ha : ∀ k : Fin 128, ab (ix2 p k) = a (ix2 i k))
    (hs : ∀ k : Fin 128, Ws' (ix2 k q) = Ws (ix2 k q)) (hn : ∀ k : Fin 128, Wn' (ix2 k q) = Wn (ix2 k q))
    (hbias : b' (ix2 (0 : Fin 1) q) = b (ix2 (0 : Fin 1) q)) :
    denseRelu hb ab Ws' Wn' b' (ix2 p q) = denseRelu h a Ws Wn b (ix2 i q) :=
  congrArg (fun v => max v zero) (dense_of_rows hb ab Ws' Wn' b' h a Ws Wn b p q i hh ha hs hn hbias)

/-- An entry of the hidden layer depends on one row of the two stacks of feature rows and one column of the weights. -/
theorem hidden_of_rows {B M : Nat} (sb db : Mx B 128) (W1' : Mx 128 128) (b1' : Mx 1 128)
    (zs zd : Mx M 128) (W1 : Mx 128 128) (b1 : Mx 1 128) (p : Fin B) (q : Fin 128) (i : Fin M)
    (hs : ∀ k : Fin 128, sb (ix2 p k) = zs (ix2 i k)) (hd : ∀ k : Fin 128, db (ix2 p k) = zd (ix2 i k))
    (hw : ∀ k : Fin 128, W1' (ix2 k q) = W1 (ix2 k q)) (hbias : b1' (ix2 (0 : Fin 1) q) = b1 (ix2 (0 : Fin 1) q)) :
    hidden sb db W1' b1' (ix2 p q) = hidden zs zd W1 b1 (ix2 i q) := by
  show max (matProd (fun i' => sb i' * db i') W1' (ix2 p q) + b1' (ix2 (0 : Fin 1) q)) zero
    = max (matProd (fun i' => zs i' * zd i') W1 (ix2 i q) + b1 (ix2 (0 : Fin 1) q)) zero
  rw [matProd_of_rows (fun i' => sb i' * db i') W1' (fun i' => zs i' * zd i') W1 p q i
    (fun k => by show sb (ix2 p k) * db (ix2 p k) = zs (ix2 i k) * zd (ix2 i k); rw [hs k, hd k]) hw, hbias]

/-- An entry of the score depends on one row of the two stacks of feature rows. -/
theorem score_of_rows {B M : Nat} (sb db : Mx B 128) (W1' : Mx 128 128) (b1' : Mx 1 128) (W2' : Mx 128 1) (b2' : Mx 1 1)
    (zs zd : Mx M 128) (W1 : Mx 128 128) (b1 : Mx 1 128) (W2 : Mx 128 1) (b2 : Mx 1 1) (p : Fin B) (q : Fin 1) (i : Fin M)
    (hs : ∀ k : Fin 128, sb (ix2 p k) = zs (ix2 i k)) (hd : ∀ k : Fin 128, db (ix2 p k) = zd (ix2 i k))
    (hw1 : ∀ k k' : Fin 128, W1' (ix2 k k') = W1 (ix2 k k')) (hb1 : ∀ k : Fin 128, b1' (ix2 (0 : Fin 1) k) = b1 (ix2 (0 : Fin 1) k))
    (hw2 : ∀ k : Fin 128, W2' (ix2 k q) = W2 (ix2 k q)) (hb2 : b2' (ix2 (0 : Fin 1) q) = b2 (ix2 (0 : Fin 1) q)) :
    score sb db W1' b1' W2' b2' (ix2 p q) = score zs zd W1 b1 W2 b2 (ix2 i q) := by
  show matProd (hidden sb db W1' b1') W2' (ix2 p q) + b2' (ix2 (0 : Fin 1) q)
    = matProd (hidden zs zd W1 b1) W2 (ix2 i q) + b2 (ix2 (0 : Fin 1) q)
  rw [matProd_of_rows (hidden sb db W1' b1') W2' (hidden zs zd W1 b1) W2 p q i
    (fun k => hidden_of_rows sb db W1' b1' zs zd W1 b1 p k i hs hd (fun k' => hw1 k' k) (hb1 k)) hw2, hb2]

end Cert.Sage

end
-- ==== Proof.KerPay.lean ====
/-
  What each region's body stores, as a function of the blocks it loads, at the ideal instance.

  Every change of float format is the identity, a matrix-unit product into a zero accumulator is the plain sum
  ∑ₖ l(i,k)·r(k,q), a cast of an array to its own shape is the array, a one-row array broadcast down the rows reads
  its row, and sums, products and maxima are taken entry by entry. So the body of a layer region stores the dense
  half of the layer (with or without the rectifier) of its blocks, and the body of the scoring region stores the
  score of its two blocks of feature rows.
-/
import proofs.«105080_j59304908423843_1_alg».proof.Proof.Gen.KernelIdeal.Skeleton
import proofs.«105080_j59304908423843_1_alg».proof.Proof.Spec
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.TcCoe Idealize.ShloMosaic.ValueIdx
open Idealize.ShloMosaic.MatProd Idealize.ShloMosaic.DotPlain Cert.Sage

/-- The 128-column products of the three bodies are plain matrix products. -/
theorem plain128 : IsPlain dot_S5000x128_S128x128_S5000x128_1_0_0_1_n_n := ⟨rfl, rfl, rfl, rfl, rfl, rfl⟩
/-- The one-column product of the scoring body is a plain matrix product. -/
theorem plain1 : IsPlain dot_S5000x128_S128x1_S5000x1_1_0_0_1_n_n := ⟨rfl, rfl, rfl, rfl, rfl, rfl⟩

/-- The first layer's body stores the rectified dense half of its blocks. -/
theorem pay0_eq (x0 x1 : Vec Ideal S5000x128 .f32) (x2 x3 : Vec Ideal S128x128 .f32) (x4 : Vec Ideal S1x128 .f32) :
    k0_pay1 (F := Ideal) x0 x1 x2 x3 x4 = denseRelu x0 x1 x2 x3 x4 := by
  funext j
  obtain ⟨p, q, rfl⟩ : ∃ (p : Fin 5000) (q : Fin 128), j = ix2 p q := ⟨j 0, j 1, eq_ix2 j⟩
  unfold k0_pay1
  simp only [maximumf_apply, addf_apply, broadcast_apply, shapeCast_self]
  rw [MatProd.matmul_zero_apply plain128, MatProd.matmul_zero_apply plain128, broadcastTo_1b_ab_apply]
  rfl

/-- The second layer's body stores the dense half of its blocks. -/
theorem pay1_eq (x0 x1 : Vec Ideal S5000x128 .f32) (x2 x3 : Vec Ideal S128x128 .f32) (x4 : Vec Ideal S1x128 .f32) :
    k1_pay1 (F := Ideal) x0 x1 x2 x3 x4 = dense x0 x1 x2 x3 x4 := by
  funext j
  obtain ⟨p, q, rfl⟩ : ∃ (p : Fin 5000) (q : Fin 128), j = ix2 p q := ⟨j 0, j 1, eq_ix2 j⟩
  unfold k1_pay1
  simp only [addf_apply, shapeCast_self]
  rw [MatProd.matmul_zero_apply plain128, MatProd.matmul_zero_apply plain128, broadcastTo_1b_ab_apply]
  rfl

/-- The scoring body stores the score of its two blocks of feature rows. -/
theorem pay2_eq (x0 x1 : Vec Ideal S5000x128 .f32) (x2 : Vec Ideal S128x128 .f32) (x3 : Vec Ideal S1x128 .f32)
    (x4 : Vec Ideal S128x1 .f32) (x5 : Vec Ideal S1x1 .f32) :
    k2_pay1 (F := Ideal) x0 x1 x2 x3 x4 x5 = score x0 x1 x2 x3 x4 x5 := by
  funext j
  obtain ⟨p, q, rfl⟩ : ∃ (p : Fin 5000) (q : Fin 1), j = ix2 p q := ⟨j 0, j 1, eq_ix2 j⟩
  unfold k2_pay1
  simp only [addf_apply, shapeCast_self]
  rw [MatProd.matmul_zero_apply plain1, broadcastTo_1b_ab_apply]
  refine congrArg (· + x5 (ix2 (0 : Fin 1) q)) ?_
  refine Finset.sum_congr rfl fun k _ => ?_
  refine congrArg (· * x4 (ix2 k q)) ?_
  show max (matmul dot_S5000x128_S128x128_S5000x128_1_0_0_1_n_n none _ _ (constant (F := Ideal) S5000x128 .f32 0x00000000#32) (ix2 p k) + broadcastTo S5000x128 x3 broadcasts_S1x128_S5000x128 (ix2 p k)) _ = _
  rw [MatProd.matmul_zero_apply plain128, broadcastTo_1b_ab_apply]
  rfl

end Cert.KernelIdeal.Pay

end
-- ==== Proof.Region0.lean ====
/-
  The array the first layer's region leaves, as one function of the arrays it finds.

  The region walks 20 blocks of 5000 consecutive rows. At block t it loads rows t·5000 … t·5000+4999 of the two
  row-indexed arrays and the whole of the weights and bias, and writes back the rectified dense half of the layer of those blocks
  as rows t·5000 … of its output. An entry of that function depends on its own row only, so what block t writes is
  block t of the function applied to the whole arrays; the 20 blocks tile the 100000 rows (row r lies in block
  r / 5000), so the output array ends as that function of the arrays the region found.
-/
import proofs.«105080_j59304908423843_1_alg».proof.Proof.Gen.KernelIdeal.Frame
import proofs.«105080_j59304908423843_1_alg».proof.Proof.KerPay

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: block t of the row-indexed arrays and of the output, the one
    block of each weight and bias array. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

set_option maxHeartbeats 4000000 in
/-- What grid point t writes back is block t of the function of the whole arrays. -/
theorem flushed_eq (c : Dev nD) (t : Fin cfg0.N) :
    (dat0 V c).flushed 5 t = ((cfg0.win 5).blk t).view.read (Elt Ideal) (denseRelu (V c main_arg0) (V c main_v18) (V c main_arg9) (V c main_arg10) (V c main_v19)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [Pay.pay0_eq]
  obtain ⟨e00, e01, e10, e11, e20, e21, e30, e31, e40, e41, e50, e51⟩ := idx_facts t
  have ht : t.val < 20 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hq : q.val < 128 := q.isLt
  let i : Fin 100000 := ⟨t.val * 5000 + p.val, by omega⟩
  have hi : i.val = t.val * 5000 + p.val := rfl
  have hemb : ((cfg0.win 5).blk t).view.emb (ix2 p q) = ix2 i q := by
    funext a; apply Fin.ext
    match a with
    | ⟨0, _⟩ => show win0_5.index t (0 : Fin 2) * 5000 + 1 * p.val = i.val; omega
    | ⟨1, _⟩ => show win0_5.index t (1 : Fin 2) * 128 + 1 * q.val = q.val; omega
  show denseRelu (iblk0 V c 0 t) (iblk0 V c 1 t) (iblk0 V c 2 t) (iblk0 V c 3 t) (iblk0 V c 4 t) (ix2 p q) = denseRelu (V c main_arg0) (V c main_v18) (V c main_arg9) (V c main_arg10) (V c main_v19) (((cfg0.win 5).blk t).view.emb (ix2 p q))
  rw [hemb]
  refine denseRelu_of_rows _ _ _ _ _ _ _ _ _ _ p q i
    (fun k => show V c main_arg0 (((cfg0.win 0).blk t).view.emb (ix2 p k)) = V c main_arg0 (ix2 i k) from by
      refine congrArg _ (funext fun a => Fin.ext ?_)
      match a with
      | ⟨0, _⟩ => show win0_0.index t (0 : Fin 2) * 5000 + 1 * p.val = i.val; omega
      | ⟨1, _⟩ => show win0_0.index t (1 : Fin 2) * 128 + 1 * k.val = k.val; omega)
    (fun k => show V c main_v18 (((cfg0.win 1).blk t).view.emb (ix2 p k)) = V c main_v18 (ix2 i k) from by
      refine congrArg _ (funext fun a => Fin.ext ?_)
      match a with
      | ⟨0, _⟩ => show win0_1.index t (0 : Fin 2) * 5000 + 1 * p.val = i.val; omega
      | ⟨1, _⟩ => show win0_1.index t (1 : Fin 2) * 128 + 1 * k.val = k.val; omega)
    (fun k => show V c main_arg9 (((cfg0.win 2).blk t).view.emb (ix2 k q)) = V c main_arg9 (ix2 k q) from by
      refine congrArg _ (funext fun a => Fin.ext ?_)
      match a with
      | ⟨0, _⟩ => show win0_2.index t (0 : Fin 2) * 128 + 1 * k.val = k.val; omega
      | ⟨1, _⟩ => show win0_2.index t (1 : Fin 2) * 128 + 1 * q.val = q.val; omega)
    (fun k => show V c main_arg10 (((cfg0.win 3).blk t).view.emb (ix2 k q)) = V c main_arg10 (ix2 k q) from by
      refine congrArg _ (funext fun a => Fin.ext ?_)
      match a with
      | ⟨0, _⟩ => show win0_3.index t (0 : Fin 2) * 128 + 1 * k.val = k.val; omega
      | ⟨1, _⟩ => show win0_3.index t (1 : Fin 2) * 128 + 1 * q.val = q.val; omega)
    (show V c main_v19 (((cfg0.win 4).blk t).view.emb (ix2 (0 : Fin 1) q)) = V c main_v19 (ix2 (0 : Fin 1) q) from by
      refine congrArg _ (funext fun a => Fin.ext ?_)
      match a with
      | ⟨0, _⟩ => show win0_4.index t (0 : Fin 2) * 1 + 1 * (0 : Fin 1).val = (0 : Fin 1).val; omega
      | ⟨1, _⟩ => show win0_4.index t (1 : Fin 2) * 128 + 1 * q.val = q.val; omega)

/-- An index of the output array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- The blocks tile the array: row r lies in block r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; omega⟩
  have htv : t.val = (i 0).val / 5000 := rfl
  obtain ⟨e00, e01, e10, e11, e20, e21, e30, e31, e40, e41, e50, e51⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the function of the arrays the region found. -/
theorem arr (c : Dev nD) : (dat0 V c).arrAt 5 cfg0.N = denseRelu (V c main_arg0) (V c main_v18) (V c main_arg9) (V c main_arg10) (V c main_v19) :=
  (dat0 V c).arrAt_eq_of_cover 5 _ (fun t _ => flushed_eq V c t) (cover)

end Cert.KernelIdeal.Reg0

end
-- ==== Proof.Region1.lean ====
/-
  The array the second layer's region leaves, as one function of the arrays it finds.

  The region walks 20 blocks of 5000 consecutive rows. At block t it loads rows t·5000 … t·5000+4999 of the two
  row-indexed arrays and the whole of the weights and bias, and writes back the dense half of the layer of those blocks
  as rows t·5000 … of its output. An entry of that function depends on its own row only, so what block t writes is
  block t of the function applied to the whole arrays; the 20 blocks tile the 100000 rows (row r lies in block
  r / 5000), so the output array ends as that function of the arrays the region found.
-/
import proofs.«105080_j59304908423843_1_alg».proof.Proof.Gen.KernelIdeal.Frame
import proofs.«105080_j59304908423843_1_alg».proof.Proof.KerPay

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: block t of the row-indexed arrays and of the output, the one
    block of each weight and bias array. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

set_option maxHeartbeats 4000000 in
/-- What grid point t writes back is block t of the function of the whole arrays. -/
theorem flushed_eq (c : Dev nD) (t : Fin cfg1.N) :
    (dat1 V c).flushed 5 t = ((cfg1.win 5).blk t).view.read (Elt Ideal) (dense (V c main_v20) (V c main_v39) (V c main_arg12) (V c main_arg13) (V c main_v40)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [Pay.pay1_eq]
  obtain ⟨e00, e01, e10, e11, e20, e21, e30, e31, e40, e41, e50, e51⟩ := idx_facts t
  have ht : t.val < 20 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hq : q.val < 128 := q.isLt
  let i : Fin 100000 := ⟨t.val * 5000 + p.val, by omega⟩
  have hi : i.val = t.val * 5000 + p.val := rfl
  have hemb : ((cfg1.win 5).blk t).view.emb (ix2 p q) = ix2 i q := by
    funext a; apply Fin.ext
    match a with
    | ⟨0, _⟩ => show win1_5.index t (0 : Fin 2) * 5000 + 1 * p.val = i.val; omega
    | ⟨1, _⟩ => show win1_5.index t (1 : Fin 2) * 128 + 1 * q.val = q.val; omega
  show dense (iblk1 V c 0 t) (iblk1 V c 1 t) (iblk1 V c 2 t) (iblk1 V c 3 t) (iblk1 V c 4 t) (ix2 p q) = dense (V c main_v20) (V c main_v39) (V c main_arg12) (V c main_arg13) (V c main_v40) (((cfg1.win 5).blk t).view.emb (ix2 p q))
  rw [hemb]
  refine dense_of_rows _ _ _ _ _ _ _ _ _ _ p q i
    (fun k => show V c main_v20 (((cfg1.win 0).blk t).view.emb (ix2 p k)) = V c main_v20 (ix2 i k) from by
      refine congrArg _ (funext fun a => Fin.ext ?_)
      match a with
      | ⟨0, _⟩ => show win1_0.index t (0 : Fin 2) * 5000 + 1 * p.val = i.val; omega
      | ⟨1, _⟩ => show win1_0.index t (1 : Fin 2) * 128 + 1 * k.val = k.val; omega)
    (fun k => show V c main_v39 (((cfg1.win 1).blk t).view.emb (ix2 p k)) = V c main_v39 (ix2 i k) from by
      refine congrArg _ (funext fun a => Fin.ext ?_)
      match a with
      | ⟨0, _⟩ => show win1_1.index t (0 : Fin 2) * 5000 + 1 * p.val = i.val; omega
      | ⟨1, _⟩ => show win1_1.index t (1 : Fin 2) * 128 + 1 * k.val = k.val; omega)
    (fun k => show V c main_arg12 (((cfg1.win 2).blk t).view.emb (ix2 k q)) = V c main_arg12 (ix2 k q) from by
      refine congrArg _ (funext fun a => Fin.ext ?_)
      match a with
      | ⟨0, _⟩ => show win1_2.index t (0 : Fin 2) * 128 + 1 * k.val = k.val; omega
      | ⟨1, _⟩ => show win1_2.index t (1 : Fin 2) * 128 + 1 * q.val = q.val; omega)
    (fun k => show V c main_arg13 (((cfg1.win 3).blk t).view.emb (ix2 k q)) = V c main_arg13 (ix2 k q) from by
      refine congrArg _ (funext fun a => Fin.ext ?_)
      match a with
      | ⟨0, _⟩ => show win1_3.index t (0 : Fin 2) * 128 + 1 * k.val = k.val; omega
      | ⟨1, _⟩ => show win1_3.index t (1 : Fin 2) * 128 + 1 * q.val = q.val; omega)
    (show V c main_v40 (((cfg1.win 4).blk t).view.emb (ix2 (0 : Fin 1) q)) = V c main_v40 (ix2 (0 : Fin 1) q) from by
      refine congrArg _ (funext fun a => Fin.ext ?_)
      match a with
      | ⟨0, _⟩ => show win1_4.index t (0 : Fin 2) * 1 + 1 * (0 : Fin 1).val = (0 : Fin 1).val; omega
      | ⟨1, _⟩ => show win1_4.index t (1 : Fin 2) * 128 + 1 * q.val = q.val; omega)

/-- An index of the output array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- The blocks tile the array: row r lies in block r / 5000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; omega⟩
  have htv : t.val = (i 0).val / 5000 := rfl
  obtain ⟨e00, e01, e10, e11, e20, e21, e30, e31, e40, e41, e50, e51⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the function of the arrays the region found. -/
theorem arr (c : Dev nD) : (dat1 V c).arrAt 5 cfg1.N = dense (V c main_v20) (V c main_v39) (V c main_arg12) (V c main_arg13) (V c main_v40) :=
  (dat1 V c).arrAt_eq_of_cover 5 _ (fun t _ => flushed_eq V c t) (cover)

end Cert.KernelIdeal.Reg1

end
-- ==== Proof.Region2.lean ====
/-
  The array the scoring region leaves, as one function of the arrays it finds.

  The region walks 40 blocks of 5000 consecutive rows. At block t it loads rows t·5000 … t·5000+4999 of the two
  row-indexed arrays and the whole of the weights and bias, and writes back the score of the two stacks of feature rows of those blocks
  as rows t·5000 … of its output. An entry of that function depends on its own row only, so what block t writes is
  block t of the function applied to the whole arrays; the 40 blocks tile the 200000 rows (row r lies in block
  r / 5000), so the output array ends as that function of the arrays the region found.
-/
import proofs.«105080_j59304908423843_1_alg».proof.Proof.Gen.KernelIdeal.Frame
import proofs.«105080_j59304908423843_1_alg».proof.Proof.KerPay

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point t: block t of the row-indexed arrays and of the output, the one
    block of each weight and bias array. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

set_option maxHeartbeats 4000000 in
/-- What grid point t writes back is block t of the function of the whole arrays. -/
theorem flushed_eq (c : Dev nD) (t : Fin cfg2.N) :
    (dat2 V c).flushed 6 t = ((cfg2.win 6).blk t).view.read (Elt Ideal) (score (V c main_v56) (V c main_v71) (V c main_arg15) (V c main_v72) (V c main_arg17) (V c main_v73)) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz, View.ld_unit_zero (S := S128x1) hz, View.ld_unit_zero (S := S1x1) hz]
  rw [Pay.pay2_eq]
  obtain ⟨e00, e01, e10, e11, e20, e21, e30, e31, e40, e41, e50, e51, e60, e61⟩ := idx_facts t
  have ht : t.val < 40 := lt_of_lt_of_eq t.isLt N_2
  funext j
  obtain ⟨p, q, rfl⟩ : ∃ (p : Fin 5000) (q : Fin 1), j = ix2 p q := ⟨j 0, j 1, eq_ix2 j⟩
  have hp : p.val < 5000 := p.isLt
  have hq : q.val < 1 := q.isLt
  let i : Fin 200000 := ⟨t.val * 5000 + p.val, by omega⟩
  have hi : i.val = t.val * 5000 + p.val := rfl
  have hemb : ((cfg2.win 6).blk t).view.emb (ix2 p q) = ix2 i q := by
    funext a; apply Fin.ext
    match a with
    | ⟨0, _⟩ => show win2_6.index t (0 : Fin 2) * 5000 + 1 * p.val = i.val; omega
    | ⟨1, _⟩ => show win2_6.index t (1 : Fin 2) * 1 + 1 * q.val = q.val; omega
  show score (iblk2 V c 0 t) (iblk2 V c 1 t) (iblk2 V c 2 t) (iblk2 V c 3 t) (iblk2 V c 4 t) (iblk2 V c 5 t) (ix2 p q) = score (V c main_v56) (V c main_v71) (V c main_arg15) (V c main_v72) (V c main_arg17) (V c main_v73) (((cfg2.win 6).blk t).view.emb (ix2 p q))
  rw [hemb]
  refine score_of_rows _ _ _ _ _ _ _ _ _ _ _ _ p q i
    (fun k => show V c main_v56 (((cfg2.win 0).blk t).view.emb (ix2 p k)) = V c main_v56 (ix2 i k) from by
      refine congrArg _ (funext fun a => Fin.ext ?_)
      match a with
      | ⟨0, _⟩ => show win2_0.index t (0 : Fin 2) * 5000 + 1 * p.val = i.val; omega
      | ⟨1, _⟩ => show win2_0.index t (1 : Fin 2) * 128 + 1 * k.val = k.val; omega)
    (fun k => show V c main_v71 (((cfg2.win 1).blk t).view.emb (ix2 p k)) = V c main_v71 (ix2 i k) from by
      refine congrArg _ (funext fun a => Fin.ext ?_)
      match a with
      | ⟨0, _⟩ => show win2_1.index t (0 : Fin 2) * 5000 + 1 * p.val = i.val; omega
      | ⟨1, _⟩ => show win2_1.index t (1 : Fin 2) * 128 + 1 * k.val = k.val; omega)
    (fun k k' => show V c main_arg15 (((cfg2.win 2).blk t).view.emb (ix2 k k')) = V c main_arg15 (ix2 k k') from by
      refine congrArg _ (funext fun a => Fin.ext ?_)
      match a with
      | ⟨0, _⟩ => show win2_2.index t (0 : Fin 2) * 128 + 1 * k.val = k.val; omega
      | ⟨1, _⟩ => show win2_2.index t (1 : Fin 2) * 128 + 1 * k'.val = k'.val; omega)
    (fun k => show V c main_v72 (((cfg2.win 3).blk t).view.emb (ix2 (0 : Fin 1) k)) = V c main_v72 (ix2 (0 : Fin 1) k) from by
      refine congrArg _ (funext fun a => Fin.ext ?_)
      match a with
      | ⟨0, _⟩ => show win2_3.index t (0 : Fin 2) * 1 + 1 * (0 : Fin 1).val = (0 : Fin 1).val; omega
      | ⟨1, _⟩ => show win2_3.index t (1 : Fin 2) * 128 + 1 * k.val = k.val; omega)
    (fun k => show V c main_arg17 (((cfg2.win 4).blk t).view.emb (ix2 k q)) = V c main_arg17 (ix2 k q) from by
      refine congrArg _ (funext fun a => Fin.ext ?_)
      match a with
      | ⟨0, _⟩ => show win2_4.index t (0 : Fin 2) * 128 + 1 * k.val = k.val; omega
      | ⟨1, _⟩ => show win2_4.index t (1 : Fin 2) * 1 + 1 * q.val = q.val; omega)
    (show V c main_v73 (((cfg2.win 5).blk t).view.emb (ix2 (0 : Fin 1) q)) = V c main_v73 (ix2 (0 : Fin 1) q) from by
      refine congrArg _ (funext fun a => Fin.ext ?_)
      match a with
      | ⟨0, _⟩ => show win2_5.index t (0 : Fin 2) * 1 + 1 * (0 : Fin 1).val = (0 : Fin 1).val; omega
      | ⟨1, _⟩ => show win2_5.index t (1 : Fin 2) * 1 + 1 * q.val = q.val; omega)

/-- An index of the output array is in point t's block iff each coordinate is in the block's range on its axis. -/
theorem mem_blk (t : Fin cfg2.N) (i : S200000x1.Idx) :
    i ∈ ((cfg2.win 6).blk t).view.set ↔ ∀ a : Fin 2, win2_6.index t a * S5000x1.size a ≤ (i a).val ∧ (i a).val < win2_6.index t a * S5000x1.size a + S5000x1.size a := by
  show i ∈ ((View.whole main_v74).slice (win2_6.rect t)).set ↔ _
  rw [View.set_slice_whole, Rect.mem_set_unit]
  exact Iff.rfl

/-- The blocks tile the array: row r lies in block r / 5000. -/
theorem cover (i : S200000x1.Idx) : ∃ t : Fin cfg2.N, (cfg2.win 6).flush t = true ∧ i ∈ ((cfg2.win 6).blk t).view.set := by
  have hi0 : (i 0).val < 200000 := (i 0).isLt
  have hi1 : (i 1).val < 1 := (i 1).isLt
  have hN : grid2.N = 40 := N_2
  let t : Fin cfg2.N := ⟨(i 0).val / 5000, by show (i 0).val / 5000 < grid2.N; omega⟩
  have htv : t.val = (i 0).val / 5000 := rfl
  obtain ⟨e00, e01, e10, e11, e20, e21, e30, e31, e40, e41, e50, e51, e60, e61⟩ := idx_facts t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 1 ≤ (i 1).val ∧ (i 1).val < win2_6.index t (1 : Fin 2) * 1 + 1; omega

/-- The output array after the region: the function of the arrays the region found. -/
theorem arr (c : Dev nD) : (dat2 V c).arrAt 6 cfg2.N = score (V c main_v56) (V c main_v71) (V c main_arg15) (V c main_v72) (V c main_arg17) (V c main_v73) :=
  (dat2 V c).arrAt_eq_of_cover 6 _ (fun t _ => flushed_eq V c t) (cover)

end Cert.KernelIdeal.Reg2

end
-- ==== Proof.KerValue.lean ====
/-
  The kernel program's buffers at each boundary, as functions of the launch memory.

  Reading the fold of contents through the program, one segment at a time. The first stretch of host operations
  leaves the neighbourhood means of the input features and the first bias as a one-row array; the first region
  leaves the first layer's features, the rectified dense half of what it found. The second stretch leaves the means
  of those features and the second bias row; the second region leaves the second layer's features. The third stretch
  picks the second layer's rows at the candidate edges' end points, the positive edges' rows stacked on the negative
  edges', once for the sources and once for the targets, and leaves the scorer's two bias rows; the third region
  leaves the scores of the stacked rows. The last stretch cuts the scores into their upper and lower halves: the
  program's two results. The argument arrays are never written, so each is read back to the launch memory.
-/
import proofs.«105080_j59304908423843_1_alg».proof.Proof.Gen.KernelIdeal.Frame
import proofs.«105080_j59304908423843_1_alg».proof.Proof.KerFns
import proofs.«105080_j59304908423843_1_alg».proof.Proof.Region0
import proofs.«105080_j59304908423843_1_alg».proof.Proof.Region1
import proofs.«105080_j59304908423843_1_alg».proof.Proof.Region2
import Idealize.ShloMosaic.Lib.StableHlo.Run

set_option maxRecDepth 16384

noncomputable section

namespace Cert.KernelIdeal.KerValue

open Cert.KernelIdeal Cert.KernelIdeal.Gen Cert.KernelIdeal.Fn Idealize.ShloMosaic Idealize.ShloMosaic.TcCoe
open Idealize.SL.Sem Idealize.ShloMosaic.StableHlo Cert.Sage

variable (m : (ℓ : Loc nD τ sig) → Buf (Elt Ideal) ℓ) (ρ : Dev nD → PrngReg) (c : Dev nD)

/-! ## The named stages -/

/-- The first layer's node features. -/
def h1 : Mx 100000 128 :=
  denseRelu (m ((c : Thread nD τ).loc main_arg0)) (agg (m ((c : Thread nD τ).loc main_arg0)) (m ((c : Thread nD τ).loc main_arg1)) (m ((c : Thread nD τ).loc main_arg2))) (m ((c : Thread nD τ).loc main_arg9)) (m ((c : Thread nD τ).loc main_arg10))
    (shapeCast S1x128 (m ((c : Thread nD τ).loc main_arg11)) shapeCasts_S128_S1x128)

/-- The second layer's node features. -/
def h2 : Mx 100000 128 :=
  dense (h1 m c) (agg (h1 m c) (m ((c : Thread nD τ).loc main_arg3)) (m ((c : Thread nD τ).loc main_arg4))) (m ((c : Thread nD τ).loc main_arg12)) (m ((c : Thread nD τ).loc main_arg13))
    (shapeCast S1x128 (m ((c : Thread nD τ).loc main_arg14)) shapeCasts_S128_S1x128)

/-- The candidate edges' source rows: the positive edges' stacked on the negative edges'. -/
def zsrc : Mx 200000 128 :=
  concatenate S200000x128 0 [⟨S100000x128, rows (h2 m c) (m ((c : Thread nD τ).loc main_arg5))⟩, ⟨S100000x128, rows (h2 m c) (m ((c : Thread nD τ).loc main_arg7))⟩] concatenates_S100000x128_S100000x128_S200000x128_d0

/-- The candidate edges' target rows, stacked the same way. -/
def zdst : Mx 200000 128 :=
  concatenate S200000x128 0 [⟨S100000x128, rows (h2 m c) (m ((c : Thread nD τ).loc main_arg6))⟩, ⟨S100000x128, rows (h2 m c) (m ((c : Thread nD τ).loc main_arg8))⟩] concatenates_S100000x128_S100000x128_S200000x128_d0

/-- The scores of the stacked candidate edges. -/
def scores : Mx 200000 1 :=
  score (zsrc m c) (zdst m c) (m ((c : Thread nD τ).loc main_arg15)) (shapeCast S1x128 (m ((c : Thread nD τ).loc main_arg16)) shapeCasts_S128_S1x128) (m ((c : Thread nD τ).loc main_arg17))
    (shapeCast S1x1 (m ((c : Thread nD τ).loc main_arg18)) shapeCasts_S1_S1x1)

/-! ## The argument arrays, read back through the fold as far as each is needed -/

theorem W1_arg0 : W1 m ρ c (Proc.devRef .tc main_arg0) = (m ((c : Thread nD τ).loc main_arg0)) := by
  show StableHlo.after hostOps0 (W0 m ρ c) (Proc.devRef .tc main_arg0) = _
  after_results_simp <;> rfl
theorem W1_arg9 : W1 m ρ c (Proc.devRef .tc main_arg9) = (m ((c : Thread nD τ).loc main_arg9)) := by
  show StableHlo.after hostOps0 (W0 m ρ c) (Proc.devRef .tc main_arg9) = _
  after_results_simp <;> rfl
theorem W1_arg10 : W1 m ρ c (Proc.devRef .tc main_arg10) = (m ((c : Thread nD τ).loc main_arg10)) := by
  show StableHlo.after hostOps0 (W0 m ρ c) (Proc.devRef .tc main_arg10) = _
  after_results_simp <;> rfl
theorem W1_arg3 : W1 m ρ c (Proc.devRef .tc main_arg3) = (m ((c : Thread nD τ).loc main_arg3)) := by
  show StableHlo.after hostOps0 (W0 m ρ c) (Proc.devRef .tc main_arg3) = _
  after_results_simp <;> rfl
theorem W1_arg4 : W1 m ρ c (Proc.devRef .tc main_arg4) = (m ((c : Thread nD τ).loc main_arg4)) := by
  show StableHlo.after hostOps0 (W0 m ρ c) (Proc.devRef .tc main_arg4) = _
  after_results_simp <;> rfl
theorem W1_arg12 : W1 m ρ c (Proc.devRef .tc main_arg12) = (m ((c : Thread nD τ).loc main_arg12)) := by
  show StableHlo.after hostOps0 (W0 m ρ c) (Proc.devRef .tc main_arg12) = _
  after_results_simp <;> rfl
theorem W1_arg13 : W1 m ρ c (Proc.devRef .tc main_arg13) = (m ((c : Thread nD τ).loc main_arg13)) := by
  show StableHlo.after hostOps0 (W0 m ρ c) (Proc.devRef .tc main_arg13) = _
  after_results_simp <;> rfl
theorem W1_arg14 : W1 m ρ c (Proc.devRef .tc main_arg14) = (m ((c : Thread nD τ).loc main_arg14)) := by
  show StableHlo.after hostOps0 (W0 m ρ c) (Proc.devRef .tc main_arg14) = _
  after_results_simp <;> rfl
theorem W1_arg5 : W1 m ρ c (Proc.devRef .tc main_arg5) = (m ((c : Thread nD τ).loc main_arg5)) := by
  show StableHlo.after hostOps0 (W0 m ρ c) (Proc.devRef .tc main_arg5) = _
  after_results_simp <;> rfl
theorem W1_arg6 : W1 m ρ c (Proc.devRef .tc main_arg6) = (m ((c : Thread nD τ).loc main_arg6)) := by
  show StableHlo.after hostOps0 (W0 m ρ c) (Proc.devRef .tc main_arg6) = _
  after_results_simp <;> rfl
theorem W1_arg7 : W1 m ρ c (Proc.devRef .tc main_arg7) = (m ((c : Thread nD τ).loc main_arg7)) := by
  show StableHlo.after hostOps0 (W0 m ρ c) (Proc.devRef .tc main_arg7) = _
  after_results_simp <;> rfl
theorem W1_arg8 : W1 m ρ c (Proc.devRef .tc main_arg8) = (m ((c : Thread nD τ).loc main_arg8)) := by
  show StableHlo.after hostOps0 (W0 m ρ c) (Proc.devRef .tc main_arg8) = _
  after_results_simp <;> rfl
theorem W1_arg15 : W1 m ρ c (Proc.devRef .tc main_arg15) = (m ((c : Thread nD τ).loc main_arg15)) := by
  show StableHlo.after hostOps0 (W0 m ρ c) (Proc.devRef .tc main_arg15) = _
  after_results_simp <;> rfl
theorem W1_arg16 : W1 m ρ c (Proc.devRef .tc main_arg16) = (m ((c : Thread nD τ).loc main_arg16)) := by
  show StableHlo.after hostOps0 (W0 m ρ c) (Proc.devRef .tc main_arg16) = _
  after_results_simp <;> rfl
theorem W1_arg17 : W1 m ρ c (Proc.devRef .tc main_arg17) = (m ((c : Thread nD τ).loc main_arg17)) := by
  show StableHlo.after hostOps0 (W0 m ρ c) (Proc.devRef .tc main_arg17) = _
  after_results_simp <;> rfl
theorem W1_arg18 : W1 m ρ c (Proc.devRef .tc main_arg18) = (m ((c : Thread nD τ).loc main_arg18)) := by
  show StableHlo.after hostOps0 (W0 m ρ c) (Proc.devRef .tc main_arg18) = _
  after_results_simp <;> rfl

theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg12 : W2 m ρ c (Proc.devRef .tc main_arg12) = (m ((c : Thread nD τ).loc main_arg12)) :=
  (W2_of_ne m ρ c main_arg12 (by decide)).trans (W1_arg12 m ρ c)
theorem W2_arg13 : W2 m ρ c (Proc.devRef .tc main_arg13) = (m ((c : Thread nD τ).loc main_arg13)) :=
  (W2_of_ne m ρ c main_arg13 (by decide)).trans (W1_arg13 m ρ c)
theorem W2_arg14 : W2 m ρ c (Proc.devRef .tc main_arg14) = (m ((c : Thread nD τ).loc main_arg14)) :=
  (W2_of_ne m ρ c main_arg14 (by decide)).trans (W1_arg14 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg15 : W2 m ρ c (Proc.devRef .tc main_arg15) = (m ((c : Thread nD τ).loc main_arg15)) :=
  (W2_of_ne m ρ c main_arg15 (by decide)).trans (W1_arg15 m ρ c)
theorem W2_arg16 : W2 m ρ c (Proc.devRef .tc main_arg16) = (m ((c : Thread nD τ).loc main_arg16)) :=
  (W2_of_ne m ρ c main_arg16 (by decide)).trans (W1_arg16 m ρ c)
theorem W2_arg17 : W2 m ρ c (Proc.devRef .tc main_arg17) = (m ((c : Thread nD τ).loc main_arg17)) :=
  (W2_of_ne m ρ c main_arg17 (by decide)).trans (W1_arg17 m ρ c)
theorem W2_arg18 : W2 m ρ c (Proc.devRef .tc main_arg18) = (m ((c : Thread nD τ).loc main_arg18)) :=
  (W2_of_ne m ρ c main_arg18 (by decide)).trans (W1_arg18 m ρ c)

theorem W3_arg12 : W3 m ρ c (Proc.devRef .tc main_arg12) = (m ((c : Thread nD τ).loc main_arg12)) := by
  refine Eq.trans ?_ (W2_arg12 m ρ c)
  show StableHlo.after hostOps1 (W2 m ρ c) (Proc.devRef .tc main_arg12) = _
  after_results_simp
theorem W3_arg13 : W3 m ρ c (Proc.devRef .tc main_arg13) = (m ((c : Thread nD τ).loc main_arg13)) := by
  refine Eq.trans ?_ (W2_arg13 m ρ c)
  show StableHlo.after hostOps1 (W2 m ρ c) (Proc.devRef .tc main_arg13) = _
  after_results_simp
theorem W3_arg5 : W3 m ρ c (Proc.devRef .tc main_arg5) = (m ((c : Thread nD τ).loc main_arg5)) := by
  refine Eq.trans ?_ (W2_arg5 m ρ c)
  show StableHlo.after hostOps1 (W2 m ρ c) (Proc.devRef .tc main_arg5) = _
  after_results_simp
theorem W3_arg6 : W3 m ρ c (Proc.devRef .tc main_arg6) = (m ((c : Thread nD τ).loc main_arg6)) := by
  refine Eq.trans ?_ (W2_arg6 m ρ c)
  show StableHlo.after hostOps1 (W2 m ρ c) (Proc.devRef .tc main_arg6) = _
  after_results_simp
theorem W3_arg7 : W3 m ρ c (Proc.devRef .tc main_arg7) = (m ((c : Thread nD τ).loc main_arg7)) := by
  refine Eq.trans ?_ (W2_arg7 m ρ c)
  show StableHlo.after hostOps1 (W2 m ρ c) (Proc.devRef .tc main_arg7) = _
  after_results_simp
theorem W3_arg8 : W3 m ρ c (Proc.devRef .tc main_arg8) = (m ((c : Thread nD τ).loc main_arg8)) := by
  refine Eq.trans ?_ (W2_arg8 m ρ c)
  show StableHlo.after hostOps1 (W2 m ρ c) (Proc.devRef .tc main_arg8) = _
  after_results_simp
theorem W3_arg15 : W3 m ρ c (Proc.devRef .tc main_arg15) = (m ((c : Thread nD τ).loc main_arg15)) := by
  refine Eq.trans ?_ (W2_arg15 m ρ c)
  show StableHlo.after hostOps1 (W2 m ρ c) (Proc.devRef .tc main_arg15) = _
  after_results_simp
theorem W3_arg16 : W3 m ρ c (Proc.devRef .tc main_arg16) = (m ((c : Thread nD τ).loc main_arg16)) := by
  refine Eq.trans ?_ (W2_arg16 m ρ c)
  show StableHlo.after hostOps1 (W2 m ρ c) (Proc.devRef .tc main_arg16) = _
  after_results_simp
theorem W3_arg17 : W3 m ρ c (Proc.devRef .tc main_arg17) = (m ((c : Thread nD τ).loc main_arg17)) := by
  refine Eq.trans ?_ (W2_arg17 m ρ c)
  show StableHlo.after hostOps1 (W2 m ρ c) (Proc.devRef .tc main_arg17) = _
  after_results_simp
theorem W3_arg18 : W3 m ρ c (Proc.devRef .tc main_arg18) = (m ((c : Thread nD τ).loc main_arg18)) := by
  refine Eq.trans ?_ (W2_arg18 m ρ c)
  show StableHlo.after hostOps1 (W2 m ρ c) (Proc.devRef .tc main_arg18) = _
  after_results_simp

theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)
theorem W4_arg15 : W4 m ρ c (Proc.devRef .tc main_arg15) = (m ((c : Thread nD τ).loc main_arg15)) :=
  (W4_of_ne m ρ c main_arg15 (by decide)).trans (W3_arg15 m ρ c)
theorem W4_arg16 : W4 m ρ c (Proc.devRef .tc main_arg16) = (m ((c : Thread nD τ).loc main_arg16)) :=
  (W4_of_ne m ρ c main_arg16 (by decide)).trans (W3_arg16 m ρ c)
theorem W4_arg17 : W4 m ρ c (Proc.devRef .tc main_arg17) = (m ((c : Thread nD τ).loc main_arg17)) :=
  (W4_of_ne m ρ c main_arg17 (by decide)).trans (W3_arg17 m ρ c)
theorem W4_arg18 : W4 m ρ c (Proc.devRef .tc main_arg18) = (m ((c : Thread nD τ).loc main_arg18)) :=
  (W4_of_ne m ρ c main_arg18 (by decide)).trans (W3_arg18 m ρ c)

theorem W5_arg15 : W5 m ρ c (Proc.devRef .tc main_arg15) = (m ((c : Thread nD τ).loc main_arg15)) := by
  refine Eq.trans ?_ (W4_arg15 m ρ c)
  show StableHlo.after hostOps2 (W4 m ρ c) (Proc.devRef .tc main_arg15) = _
  after_results_simp
theorem W5_arg17 : W5 m ρ c (Proc.devRef .tc main_arg17) = (m ((c : Thread nD τ).loc main_arg17)) := by
  refine Eq.trans ?_ (W4_arg17 m ρ c)
  show StableHlo.after hostOps2 (W4 m ρ c) (Proc.devRef .tc main_arg17) = _
  after_results_simp

/-! ## The first layer -/

theorem W1_v18 : W1 m ρ c (Proc.devRef .tc main_v18) = agg (m ((c : Thread nD τ).loc main_arg0)) (m ((c : Thread nD τ).loc main_arg1)) (m ((c : Thread nD τ).loc main_arg2)) := by
  show StableHlo.after hostOps0 (W0 m ρ c) (Proc.devRef .tc main_v18) = _
  after_results_simp <;> rfl

theorem W1_v19 : W1 m ρ c (Proc.devRef .tc main_v19) = shapeCast S1x128 (m ((c : Thread nD τ).loc main_arg11)) shapeCasts_S128_S1x128 := by
  show StableHlo.after hostOps0 (W0 m ρ c) (Proc.devRef .tc main_v19) = _
  after_results_simp <;> rfl

theorem W2_v20 : W2 m ρ c (Proc.devRef .tc main_v20) = h1 m c := by
  refine (W2_arr m ρ c 5).trans ((Reg0.arr (V1 m ρ) c).trans ?_)
  show denseRelu (W1 m ρ c (Proc.devRef .tc main_arg0)) (W1 m ρ c (Proc.devRef .tc main_v18)) (W1 m ρ c (Proc.devRef .tc main_arg9)) (W1 m ρ c (Proc.devRef .tc main_arg10)) (W1 m ρ c (Proc.devRef .tc main_v19)) = _
  rw [W1_arg0, W1_v18, W1_arg9, W1_arg10, W1_v19]
  rfl

/-! ## The second layer -/

theorem W3_v20 : W3 m ρ c (Proc.devRef .tc main_v20) = h1 m c := by
  refine Eq.trans ?_ (W2_v20 m ρ c)
  show StableHlo.after hostOps1 (W2 m ρ c) (Proc.devRef .tc main_v20) = _
  after_results_simp

theorem W3_v39 : W3 m ρ c (Proc.devRef .tc main_v39) = agg (h1 m c) (m ((c : Thread nD τ).loc main_arg3)) (m ((c : Thread nD τ).loc main_arg4)) := by
  rw [← W2_v20 m ρ c, ← W2_arg3 m ρ c, ← W2_arg4 m ρ c]
  show StableHlo.after hostOps1 (W2 m ρ c) (Proc.devRef .tc main_v39) = _
  after_results_simp <;> rfl

theorem W3_v40 : W3 m ρ c (Proc.devRef .tc main_v40) = shapeCast S1x128 (m ((c : Thread nD τ).loc main_arg14)) shapeCasts_S128_S1x128 := by
  rw [← W2_arg14 m ρ c]
  show StableHlo.after hostOps1 (W2 m ρ c) (Proc.devRef .tc main_v40) = _
  after_results_simp <;> rfl

theorem W4_v41 : W4 m ρ c (Proc.devRef .tc main_v41) = h2 m c := by
  refine (W4_arr m ρ c 5).trans ((Reg1.arr (V3 m ρ) c).trans ?_)
  show dense (W3 m ρ c (Proc.devRef .tc main_v20)) (W3 m ρ c (Proc.devRef .tc main_v39)) (W3 m ρ c (Proc.devRef .tc main_arg12)) (W3 m ρ c (Proc.devRef .tc main_arg13)) (W3 m ρ c (Proc.devRef .tc main_v40)) = _
  rw [W3_v20, W3_v39, W3_arg12, W3_arg13, W3_v40]
  rfl

/-! ## The scorer's bias rows -/

theorem W5_v72 : W5 m ρ c (Proc.devRef .tc main_v72) = shapeCast S1x128 (m ((c : Thread nD τ).loc main_arg16)) shapeCasts_S128_S1x128 := by
  rw [← W4_arg16 m ρ c]
  show StableHlo.after hostOps2 (W4 m ρ c) (Proc.devRef .tc main_v72) = _
  after_results_simp <;> rfl

theorem W5_v73 : W5 m ρ c (Proc.devRef .tc main_v73) = shapeCast S1x1 (m ((c : Thread nD τ).loc main_arg18)) shapeCasts_S1_S1x1 := by
  rw [← W4_arg18 m ρ c]
  show StableHlo.after hostOps2 (W4 m ρ c) (Proc.devRef .tc main_v73) = _
  after_results_simp <;> rfl

end Cert.KernelIdeal.KerValue

end
-- ==== Proof.KerStackSrc.lean ====
/-
  The candidate edges' source rows as the third stretch of host operations leaves them: the second layer's rows at
  the positive edges' source end points stacked on its rows at the negative edges' source end points. Read off the
  stretch's operations one at a time; every other operation of the stretch writes another buffer.
-/
import proofs.«105080_j59304908423843_1_alg».proof.Proof.KerValue

set_option maxRecDepth 16384

noncomputable section

namespace Cert.KernelIdeal.KerValue

open Cert.KernelIdeal Cert.KernelIdeal.Gen Cert.KernelIdeal.Fn Idealize.ShloMosaic Idealize.ShloMosaic.TcCoe
open Idealize.SL.Sem Idealize.ShloMosaic.StableHlo Cert.Sage

variable (m : (ℓ : Loc nD τ sig) → Buf (Elt Ideal) ℓ) (ρ : Dev nD → PrngReg) (c : Dev nD)

set_option maxHeartbeats 4000000 in
/-- The stretch's operations, followed to the stacked array, over the contents the stretch starts from. -/
theorem W5_v56_raw : StableHlo.after hostOps2 (W4 m ρ c) (Proc.devRef .tc main_v56)
    = concatenate S200000x128 0 [⟨S100000x128, rows (W4 m ρ c (Proc.devRef .tc main_v41)) (W4 m ρ c (Proc.devRef .tc main_arg5))⟩, ⟨S100000x128, rows (W4 m ρ c (Proc.devRef .tc main_v41)) (W4 m ρ c (Proc.devRef .tc main_arg7))⟩] concatenates_S100000x128_S100000x128_S200000x128_d0 := by
  after_results
  rfl

theorem W5_v56 : W5 m ρ c (Proc.devRef .tc main_v56) = zsrc m c := by
  refine (W5_v56_raw m ρ c).trans ?_
  rw [W4_v41, W4_arg5, W4_arg7]
  rfl

end Cert.KernelIdeal.KerValue

end
-- ==== Proof.KerStackDst.lean ====
/-
  The candidate edges' target rows as the third stretch of host operations leaves them: the second layer's rows at
  the positive edges' target end points stacked on its rows at the negative edges' target end points. Read off the
  stretch's operations one at a time; every other operation of the stretch writes another buffer.
-/
import proofs.«105080_j59304908423843_1_alg».proof.Proof.KerValue

set_option maxRecDepth 16384

noncomputable section

namespace Cert.KernelIdeal.KerValue

open Cert.KernelIdeal Cert.KernelIdeal.Gen Cert.KernelIdeal.Fn Idealize.ShloMosaic Idealize.ShloMosaic.TcCoe
open Idealize.SL.Sem Idealize.ShloMosaic.StableHlo Cert.Sage

variable (m : (ℓ : Loc nD τ sig) → Buf (Elt Ideal) ℓ) (ρ : Dev nD → PrngReg) (c : Dev nD)

set_option maxHeartbeats 4000000 in
/-- The stretch's operations, followed to the stacked array, over the contents the stretch starts from. -/
theorem W5_v71_raw : StableHlo.after hostOps2 (W4 m ρ c) (Proc.devRef .tc main_v71)
    = concatenate S200000x128 0 [⟨S100000x128, rows (W4 m ρ c (Proc.devRef .tc main_v41)) (W4 m ρ c (Proc.devRef .tc main_arg6))⟩, ⟨S100000x128, rows (W4 m ρ c (Proc.devRef .tc main_v41)) (W4 m ρ c (Proc.devRef .tc main_arg8))⟩] concatenates_S100000x128_S100000x128_S200000x128_d0 := by
  after_results
  rfl

theorem W5_v71 : W5 m ρ c (Proc.devRef .tc main_v71) = zdst m c := by
  refine (W5_v71_raw m ρ c).trans ?_
  rw [W4_v41, W4_arg6, W4_arg8]
  rfl

end Cert.KernelIdeal.KerValue

end
-- ==== Proof.LibStackRows.lean ====
/-
  The rows of two matrices stacked one on top of the other.

  An [a, w] matrix concatenated along axis 0 with a [b, w] matrix gives an [n, w] matrix whose row r, for r < a, is
  row r of the upper piece, and whose row a + r is row r of the lower piece; the column coordinate is kept. (What
  jnp.concatenate([X, Y], axis=0) lowers to, read at an entry.)
-/
import Idealize.ShloMosaic.Lib.ValueIdx
import Idealize.ShloMosaic.Lib.Pipeline.Value

noncomputable section

namespace Cert.LibStackRows

open Idealize.ShloMosaic Idealize.ShloMosaic.ValueIdx

variable {α : Type} {a b n w : ℕ}

/-- A row of the stack below the upper piece's height is that row of the upper piece. -/
theorem stack_upper (X : (⟨2, ![a, w]⟩ : Shape).Idx → α) (Y : (⟨2, ![b, w]⟩ : Shape).Idx → α)
    (hcat : Shape.Concatenates [(⟨2, ![a, w]⟩ : Shape), ⟨2, ![b, w]⟩] ⟨2, ![n, w]⟩ 0)
    (r : Fin a) (r' : Fin n) (hr : r'.val = r.val) (k : Fin w) :
    concatenate ⟨2, ![n, w]⟩ 0 [⟨⟨2, ![a, w]⟩, X⟩, ⟨⟨2, ![b, w]⟩, Y⟩] hcat (ix2 r' k) = X (ix2 r k) :=
  concatenate_pair_apply_left (0 : Fin 2) X Y hcat (ix2 r' k) rfl (ix2 r k) fun d => by
    match d with
    | ⟨0, _⟩ => exact hr.symm
    | ⟨1, _⟩ => rfl

/-- Row a + r of the stack is row r of the lower piece. -/
theorem stack_lower (X : (⟨2, ![a, w]⟩ : Shape).Idx → α) (Y : (⟨2, ![b, w]⟩ : Shape).Idx → α)
    (hcat : Shape.Concatenates [(⟨2, ![a, w]⟩ : Shape), ⟨2, ![b, w]⟩] ⟨2, ![n, w]⟩ 0)
    (r : Fin b) (r' : Fin n) (hr : r'.val = a + r.val) (k : Fin w) :
    concatenate ⟨2, ![n, w]⟩ 0 [⟨⟨2, ![a, w]⟩, X⟩, ⟨⟨2, ![b, w]⟩, Y⟩] hcat (ix2 r' k) = Y (ix2 r k) :=
  concatenate_pair_apply_right (0 : Fin 2) X Y hcat (ix2 r' k) rfl rfl (ix2 r k)
    (fun d hd => by
      match d with
      | ⟨0, _⟩ => exact absurd rfl hd
      | ⟨1, _⟩ => rfl)
    (by show r.val + a = r'.val; omega)

end Cert.LibStackRows

end
-- ==== Proof.Stack.lean ====
/-
  Scoring two stacks of candidate edges laid end to end, then cutting the scores apart.

  The tiled program stacks the positive edges' rows on top of the negative edges' rows (for the source end points and
  for the target end points), scores the 200000 stacked rows in one pass, and cuts the column of scores into its upper
  and lower halves. An entry of the score depends on its own row only: row r < 100000 of a stack is row r of its upper
  piece and row 100000 + r is row r of its lower piece. So the upper half of the scores is the score of the two upper
  pieces and the lower half the score of the two lower pieces.
-/
import proofs.«105080_j59304908423843_1_alg».proof.Proof.Gen.KernelIdeal
import proofs.«105080_j59304908423843_1_alg».proof.Proof.Spec
import proofs.«105080_j59304908423843_1_alg».proof.Proof.LibStackRows
import Idealize.ShloMosaic.Lib.ValueLayout
import Idealize.ShloMosaic.Lib.Pipeline.Value

noncomputable section

namespace Cert.KernelIdeal.Stack

open Cert.KernelIdeal Cert.KernelIdeal.Gen Idealize.ShloMosaic Idealize.ShloMosaic.ValueIdx Cert.Sage Cert.LibStackRows

variable (A B C D : Mx 100000 128) (W1 : Mx 128 128) (b1 : Mx 1 128) (W2 : Mx 128 1) (b2 : Mx 1 1)

/-- The upper half of the stacked scores is the score of the upper pieces. -/
theorem score_upper (hcat : Shape.Concatenates [S100000x128, S100000x128] S200000x128 0)
    (hs : S200000x1.Slices ![0, 0] S100000x1) :
    extractStridedSlice S100000x1 ![0, 0]
        (score (concatenate S200000x128 0 [⟨S100000x128, A⟩, ⟨S100000x128, B⟩] hcat)
          (concatenate S200000x128 0 [⟨S100000x128, C⟩, ⟨S100000x128, D⟩] hcat) W1 b1 W2 b2) hs
      = score A C W1 b1 W2 b2 := by
  funext j
  obtain ⟨r, q, rfl⟩ : ∃ (r : Fin 100000) (q : Fin 1), j = ix2 r q := ⟨j 0, j 1, eq_ix2 j⟩
  have hr := r.isLt
  let r' : Fin 200000 := ⟨r.val, by omega⟩
  rw [slice2_axis0_apply 0 _ hs r q r' (by show r.val = 0 + r.val; omega)]
  exact score_of_rows _ _ W1 b1 W2 b2 A C W1 b1 W2 b2 r' q r
    (fun k => stack_upper A B hcat r r' rfl k) (fun k => stack_upper C D hcat r r' rfl k)
    (fun _ _ => rfl) (fun _ => rfl) (fun _ => rfl) rfl

/-- The lower half of the stacked scores is the score of the lower pieces. -/
theorem score_lower (hcat : Shape.Concatenates [S100000x128, S100000x128] S200000x128 0)
    (hs : S200000x1.Slices ![100000, 0] S100000x1) :
    extractStridedSlice S100000x1 ![100000, 0]
        (score (concatenate S200000x128 0 [⟨S100000x128, A⟩, ⟨S100000x128, B⟩] hcat)
          (concatenate S200000x128 0 [⟨S100000x128, C⟩, ⟨S100000x128, D⟩] hcat) W1 b1 W2 b2) hs
      = score B D W1 b1 W2 b2 := by
  funext j
  obtain ⟨r, q, rfl⟩ : ∃ (r : Fin 100000) (q : Fin 1), j = ix2 r q := ⟨j 0, j 1, eq_ix2 j⟩
  have hr := r.isLt
  let r' : Fin 200000 := ⟨100000 + r.val, by omega⟩
  rw [slice2_axis0_apply 100000 _ hs r q r' rfl]
  exact score_of_rows _ _ W1 b1 W2 b2 B D W1 b1 W2 b2 r' q r
    (fun k => stack_lower A B hcat r r' rfl k) (fun k => stack_lower C D hcat r r' rfl k)
    (fun _ _ => rfl) (fun _ => rfl) (fun _ => rfl) rfl

end Cert.KernelIdeal.Stack

end
-- ==== Proof.KerOut.lean ====
/-
  The scores the third region leaves, and the program's two results: the upper and lower halves of the scores, which
  are the scores of the positive and of the negative candidate edges.
-/
import proofs.«105080_j59304908423843_1_alg».proof.Proof.KerStackSrc
import proofs.«105080_j59304908423843_1_alg».proof.Proof.KerStackDst
import proofs.«105080_j59304908423843_1_alg».proof.Proof.Stack

set_option maxRecDepth 16384

noncomputable section

namespace Cert.KernelIdeal.KerValue

open Cert.KernelIdeal Cert.KernelIdeal.Gen Cert.KernelIdeal.Fn Idealize.ShloMosaic Idealize.ShloMosaic.TcCoe
open Idealize.SL.Sem Idealize.ShloMosaic.StableHlo Cert.Sage

variable (m : (ℓ : Loc nD τ sig) → Buf (Elt Ideal) ℓ) (ρ : Dev nD → PrngReg) (c : Dev nD)

theorem W6_v74 : W6 m ρ c (Proc.devRef .tc main_v74) = scores m c := by
  refine (W6_arr m ρ c 6).trans ((Reg2.arr (V5 m ρ) c).trans ?_)
  show score (W5 m ρ c (Proc.devRef .tc main_v56)) (W5 m ρ c (Proc.devRef .tc main_v71)) (W5 m ρ c (Proc.devRef .tc main_arg15)) (W5 m ρ c (Proc.devRef .tc main_v72)) (W5 m ρ c (Proc.devRef .tc main_arg17)) (W5 m ρ c (Proc.devRef .tc main_v73)) = _
  rw [W5_v56, W5_v71, W5_arg15, W5_v72, W5_arg17, W5_v73]
  rfl

/-- The scores of the positive candidate edges. -/
def res0 : Mx 100000 1 :=
  score (rows (h2 m c) (m ((c : Thread nD τ).loc main_arg5))) (rows (h2 m c) (m ((c : Thread nD τ).loc main_arg6))) (m ((c : Thread nD τ).loc main_arg15)) (shapeCast S1x128 (m ((c : Thread nD τ).loc main_arg16)) shapeCasts_S128_S1x128) (m ((c : Thread nD τ).loc main_arg17))
    (shapeCast S1x1 (m ((c : Thread nD τ).loc main_arg18)) shapeCasts_S1_S1x1)

/-- The scores of the negative candidate edges. -/
def res1 : Mx 100000 1 :=
  score (rows (h2 m c) (m ((c : Thread nD τ).loc main_arg7))) (rows (h2 m c) (m ((c : Thread nD τ).loc main_arg8))) (m ((c : Thread nD τ).loc main_arg15)) (shapeCast S1x128 (m ((c : Thread nD τ).loc main_arg16)) shapeCasts_S128_S1x128) (m ((c : Thread nD τ).loc main_arg17))
    (shapeCast S1x1 (m ((c : Thread nD τ).loc main_arg18)) shapeCasts_S1_S1x1)

theorem W7_v75 : W7 m ρ c (Proc.devRef .tc main_v75) = res0 m c := by
  have e : W7 m ρ c (Proc.devRef .tc main_v75) = extractStridedSlice S100000x1 ![0, 0] (W6 m ρ c (Proc.devRef .tc main_v74)) slices_S200000x1_S100000x1_0_0 := by
    show StableHlo.after hostOps3 (W6 m ρ c) (Proc.devRef .tc main_v75) = _
    after_results_simp <;> rfl
  rw [e, W6_v74]
  unfold scores zsrc zdst res0
  exact Stack.score_upper _ _ _ _ _ _ _ _ _ _

theorem W7_v76 : W7 m ρ c (Proc.devRef .tc main_v76) = res1 m c := by
  have e : W7 m ρ c (Proc.devRef .tc main_v76) = extractStridedSlice S100000x1 ![100000, 0] (W6 m ρ c (Proc.devRef .tc main_v74)) slices_S200000x1_S100000x1_100000_0 := by
    show StableHlo.after hostOps3 (W6 m ρ c) (Proc.devRef .tc main_v76) = _
    after_results_simp <;> rfl
  rw [e, W6_v74]
  unfold scores zsrc zdst res1
  exact Stack.score_lower _ _ _ _ _ _ _ _ _ _

end Cert.KernelIdeal.KerValue

end
-- ==== Proof.RefFns.lean ====
/-
  The host-side stages that both programs spell with the same operations, named once as functions of their operands:
  the wrapping of negative node ids, the mean of a node's in-neighbours' rows (rows gathered at the edges' sources,
  summed into the edges' targets, divided by the in-degree floored at one), and the rows of a feature array picked
  at a list of node ids. Nothing here is opened: the two programs apply these same functions to the same operands,
  so their values agree as soon as the operands do.
-/
import proofs.«105080_j59304908423843_1_alg».proof.Proof.Gen.ReferenceIdeal
import Idealize.ShloMosaic.PureOps.Ideal

noncomputable section

namespace Cert.ReferenceIdeal.Fn

open Cert.ReferenceIdeal Cert.ReferenceIdeal.Gen Idealize.ShloMosaic Idealize.ShloMosaic.TcCoe Idealize.SL.Sem Idealize.ShloMosaic.StableHlo

/-- An array of 32-bit words. -/
abbrev IV (s : Shape) : Type := (⟨s, .i32⟩ : BufTy).Contents (Elt Ideal)
/-- An array of extended reals. -/
abbrev FV (s : Shape) : Type := FVec Ideal s .f32

/-- The node ids of an edge list as a column of start indices, a negative id counted from the end. -/
def startsE (idx : IV S1000000) : IV S1000000x1 :=
  broadcastInDim S1000000x1 ![0] bcast_S1000000_S1000000x1_0 (select (cmpi .slt idx (broadcastInDim S1000000 ![] bcast_S_S1000000 (constantI S_ 32 0#32))) (addi idx (broadcastInDim S1000000 ![] bcast_S_S1000000 (constantI S_ 32 100000#32))) idx)

/-- The node ids of a list of candidate edges' end points as a column of start indices, a negative id counted from the end. -/
def startsP (idx : IV S100000) : IV S100000x1 :=
  broadcastInDim S100000x1 ![0] bcast_S100000_S100000x1_0 (select (cmpi .slt idx (broadcastInDim S100000 ![] bcast_S_S100000 (constantI S_ 32 0#32))) (addi idx (broadcastInDim S100000 ![] bcast_S_S100000 (constantI S_ 32 100000#32))) idx)

/-- The mean of the in-neighbours' feature rows: the rows at the edges' sources summed into the edges' targets,
    each row divided by the node's in-degree floored at one. -/
def agg (h : FV S100000x128) (src dst : IV S1000000) : FV S100000x128 :=
  Host.divf (Host.scatterAdd scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 dst) (Host.gather gather_S100000x128_S1000000x1_S1000000x128_1_0_n_n_0_1_1128 h (startsE src))) (broadcastInDim S100000x128 ![0, 1] bcast_S100000x1_S100000x128_0_1 (broadcastInDim S100000x1 ![0] bcast_S100000_S100000x1_0 (maximumf (Host.scatterAdd scatter_S100000_S1000000x1_S1000000_n_0_0_1 (broadcastInDim S100000 ![] bcast_S_S100000 (constant (F := Ideal) S_ .f32 0x00000000#32)) (broadcastInDim S1000000x1 ![0] bcast_S1000000_S1000000x1_0 dst) (broadcastInDim S1000000 ![] bcast_S_S1000000 (constant (F := Ideal) S_ .f32 0x3F800000#32))) (broadcastInDim S100000 ![] bcast_S_S100000 (constant (F := Ideal) S_ .f32 0x3F800000#32)))))

/-- The rows of a feature array at a list of node ids. -/
def rows (h : FV S100000x128) (idx : IV S100000) : FV S100000x128 :=
  Host.gather gather_S100000x128_S100000x1_S100000x128_1_0_n_n_0_1_1128 h (startsP idx)

/-- The dense half of a layer as the reference spells it: two matrix products, their sum, the bias row added on every row. -/
def dense (h a : FV S100000x128) (Ws Wn : FV S128x128) (b : FV S128) : FV S100000x128 :=
  addf (addf (Host.dotGeneral dot_S100000x128_S128x128_S100000x128_1_0_0_1_n_n none h Ws) (Host.dotGeneral dot_S100000x128_S128x128_S100000x128_1_0_0_1_n_n none a Wn)) (broadcastInDim S100000x128 ![0, 1] bcast_S1x128_S100000x128_0_1 (broadcastInDim S1x128 ![1] bcast_S128_S1x128_1 b))

/-- The rectifier as the reference spells it: the maximum with an array of zeros. -/
def relu (x : FV S100000x128) : FV S100000x128 :=
  maximumf x (broadcastInDim S100000x128 ![] bcast_S_S100000x128 (constant (F := Ideal) S_ .f32 0x00000000#32))

/-- The edge scorer as the reference spells it, on the entrywise product of the two end points' rows. -/
def score (z : FV S100000x128) (W1 : FV S128x128) (b1 : FV S128) (W2 : FV S128x1) (b2 : FV S1) : FV S100000x1 :=
  addf (Host.dotGeneral dot_S100000x128_S128x1_S100000x1_1_0_0_1_n_n none (relu (addf (Host.dotGeneral dot_S100000x128_S128x128_S100000x128_1_0_0_1_n_n none z W1) (broadcastInDim S100000x128 ![0, 1] bcast_S1x128_S100000x128_0_1 (broadcastInDim S1x128 ![1] bcast_S128_S1x128_1 b1)))) W2) (broadcastInDim S100000x1 ![0, 1] bcast_S1x1_S100000x1_0_1 (broadcastInDim S1x1 ![1] bcast_S1_S1x1_1 b2))

end Cert.ReferenceIdeal.Fn

end
-- ==== Proof.RefValue.lean ====
/-
  What the reference program's two results hold, in terms of the named stages.

  The first layer's features are the rectified dense half applied to the input features and their neighbourhood
  means; the second layer's are the dense half applied to the first layer's features and their means. The scores of
  the positive (negative) candidate edges are the edge scorer applied to the entrywise product of the second layer's
  rows at the positive (negative) edges' two end points. The program's composed result terms are these compositions
  verbatim, so each equation holds by unfolding the names.
-/
import proofs.«105080_j59304908423843_1_alg».proof.Proof.Gen.ReferenceIdeal.Run
import proofs.«105080_j59304908423843_1_alg».proof.Proof.RefFns

set_option maxRecDepth 16384

noncomputable section

namespace Cert.ReferenceIdeal.RefValue

open Cert.ReferenceIdeal Cert.ReferenceIdeal.Gen Cert.ReferenceIdeal.Fn Idealize.ShloMosaic Idealize.ShloMosaic.TcCoe Idealize.SL.Sem Idealize.ShloMosaic.StableHlo

variable (m : (ℓ : Loc nD τ sig) → Buf (Elt Ideal) ℓ) (c : Dev nD)

/-- The first layer's node features. -/
def h1 : FV S100000x128 :=
  relu (dense (m ((c.tc : Thread nD τ).loc main_arg0)) (agg (m ((c.tc : Thread nD τ).loc main_arg0)) (m ((c.tc : Thread nD τ).loc main_arg1)) (m ((c.tc : Thread nD τ).loc main_arg2))) (m ((c.tc : Thread nD τ).loc main_arg9)) (m ((c.tc : Thread nD τ).loc main_arg10)) (m ((c.tc : Thread nD τ).loc main_arg11)))

/-- The second layer's node features. -/
def h2 : FV S100000x128 :=
  dense (h1 m c) (agg (h1 m c) (m ((c.tc : Thread nD τ).loc main_arg3)) (m ((c.tc : Thread nD τ).loc main_arg4))) (m ((c.tc : Thread nD τ).loc main_arg12)) (m ((c.tc : Thread nD τ).loc main_arg13)) (m ((c.tc : Thread nD τ).loc main_arg14))

/-- The first result: the scores of the positive candidate edges. -/
theorem out0_eq : Value.res_main_v74 (F := Ideal) m c
    = score (mulf (rows (h2 m c) (m ((c.tc : Thread nD τ).loc main_arg5))) (rows (h2 m c) (m ((c.tc : Thread nD τ).loc main_arg6)))) (m ((c.tc : Thread nD τ).loc main_arg15)) (m ((c.tc : Thread nD τ).loc main_arg16)) (m ((c.tc : Thread nD τ).loc main_arg17)) (m ((c.tc : Thread nD τ).loc main_arg18)) := by
  unfold Value.res_main_v74
  rfl

/-- The second result: the scores of the negative candidate edges. -/
theorem out1_eq : Value.res_main_v98 (F := Ideal) m c
    = score (mulf (rows (h2 m c) (m ((c.tc : Thread nD τ).loc main_arg7))) (rows (h2 m c) (m ((c.tc : Thread nD τ).loc main_arg8)))) (m ((c.tc : Thread nD τ).loc main_arg15)) (m ((c.tc : Thread nD τ).loc main_arg16)) (m ((c.tc : Thread nD τ).loc main_arg17)) (m ((c.tc : Thread nD τ).loc main_arg18)) := by
  unfold Value.res_main_v98
  rfl

end Cert.ReferenceIdeal.RefValue

end
-- ==== Proof.LibRowOfVector.lean ====
/-
  A bias vector as an array of one row, two ways.

  A vector of length `a` can be made an array of shape `[1, a]` by a reshape (row-major positions are kept) or by a
  broadcast that sends the vector's axis to the array's second axis. Both arrays have entry `(0, q)` equal to entry `q`
  of the vector, so they are the same array. A tiled kernel usually receives its bias in the first form, a whole-array
  reference usually builds the second.
-/
import Idealize.ShloMosaic.Lib.ValueLayout
import Idealize.ShloMosaic.Lib.ValueIdx
import Idealize.ShloMosaic.Lib.Pipeline.Value

noncomputable section

namespace Cert.LibRowOfVector

open Idealize.ShloMosaic Idealize.ShloMosaic.ValueIdx

/-- A vector reshaped to an array of one row is the vector broadcast along that row: entry `(0, q)` of either is
    entry `q` of the vector. Holds for any element type and any length (for length one the broadcast reads index
    `0`, which is the only index). -/
theorem row_of_vector {α : Type} {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext i
  obtain ⟨u, q, rfl⟩ : ∃ (u : Fin 1) (q : Fin a), i = ix2 u q := ⟨i 0, i 1, eq_ix2 i⟩
  rw [shapeCast_a_1a_apply]
  refine (broadcastInDim_apply _ hb x (ix2 u q) (ix1 q) (fun d => ?_)).symm
  match d with
  | ⟨0, _⟩ =>
    show q.val = if a = 1 then 0 else q.val
    split
    · have := q.isLt; omega
    · rfl

end Cert.LibRowOfVector

end
-- ==== Proof.LibHostBroadcast.lean ====
/-
  Two host broadcasts read at an entry.

  A one-row array [1, b] broadcast to [a, b] with both axes kept (dims = [0, 1]) reads, at (i, q), the row's entry
  (0, q): the unit axis reads index 0, the other axis its own coordinate (and when b = 1 that coordinate is 0 too).
  A scalar broadcast to any shape (dims = []) reads the scalar at every entry. These are the forms a whole-array
  reference builds a bias row and a constant array in.
-/
import Idealize.ShloMosaic.Lib.ValueIdx
import Idealize.ShloMosaic.Lib.Pipeline.Value

noncomputable section

namespace Cert.LibHostBroadcast

open Idealize.ShloMosaic Idealize.ShloMosaic.ValueIdx

/-- A one-row array broadcast down the rows (both axes kept) reads, at (i, q), the row's entry (0, q). -/
theorem bcast_rows_apply {α : Type} {a b : ℕ} (v : (⟨2, ![1, b]⟩ : Shape).Idx → α)
    (h : (⟨2, ![1, b]⟩ : Shape).BroadcastsInDim ⟨2, ![a, b]⟩ ![0, 1]) (i : Fin a) (q : Fin b) :
    broadcastInDim ⟨2, ![a, b]⟩ ![0, 1] h v (ix2 i q) = v (ix2 (0 : Fin 1) q) := by
  refine broadcastInDim_apply _ h v (ix2 i q) (ix2 (0 : Fin 1) q) fun d => ?_
  match d with
  | ⟨0, _⟩ => rfl
  | ⟨1, _⟩ =>
    show q.val = if b = 1 then 0 else q.val
    split
    · have := q.isLt; omega
    · rfl

/-- A scalar broadcast to an array reads the scalar at every entry. -/
theorem bcast_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun d => d.elim0

end Cert.LibHostBroadcast

end
-- ==== Proof.Bridge.lean ====
/-
  The reference's spelling of a layer and of the edge scorer is the specification, entry by entry.

  A host matrix product with plain dimension numbers is the sum ∑ₖ l(i,k)·r(k,q); a bias vector made a one-row array
  (by a broadcast of its axis to the second axis, the same array as its reshape) and broadcast down the rows reads,
  at (i, q), the vector's entry q; the rectifier is the maximum with the zero word's value at every entry; sums and
  products of arrays are taken entry by entry. Reading the reference's operations at an entry one after the other
  gives exactly the specification's formula, with the bias in the one-row form the tiled program receives it in.
-/
import proofs.«105080_j59304908423843_1_alg».proof.Proof.RefFns
import proofs.«105080_j59304908423843_1_alg».proof.Proof.Spec
import proofs.«105080_j59304908423843_1_alg».proof.Proof.LibRowOfVector
import proofs.«105080_j59304908423843_1_alg».proof.Proof.LibHostBroadcast
import Idealize.ShloMosaic.Lib.ValueLayout
import Idealize.ShloMosaic.Lib.Pipeline.Value

noncomputable section

open scoped BigOperators

namespace Cert.Bridge

open Cert.ReferenceIdeal Cert.ReferenceIdeal.Gen Cert.ReferenceIdeal.Fn Idealize.ShloMosaic Idealize.ShloMosaic.ValueIdx
open Idealize.ShloMosaic.MatProd Idealize.ShloMosaic.DotPlain Cert.Sage Cert.LibHostBroadcast

/-- The reference's 128-column products are plain matrix products. -/
theorem plainN : IsPlain dot_S100000x128_S128x128_S100000x128_1_0_0_1_n_n := ⟨rfl, rfl, rfl, rfl, rfl, rfl⟩
/-- The reference's one-column product is a plain matrix product. -/
theorem plainN1 : IsPlain dot_S100000x128_S128x1_S100000x1_1_0_0_1_n_n := ⟨rfl, rfl, rfl, rfl, rfl, rfl⟩

/-- The reference's rectifier at an entry. -/
theorem relu_apply (x : FV S100000x128) (j : S100000x128.Idx) : Fn.relu x j = max (x j) Sage.zero := by
  unfold Fn.relu
  show max (x j) (broadcastInDim S100000x128 ![] bcast_S_S100000x128 (constant (F := Ideal) S_ .f32 0x00000000#32) j) = _
  rw [bcast_scalar_apply]
  rfl

/-- The reference's dense half of a layer at an entry. -/
theorem dense_apply (h a : FV S100000x128) (Ws Wn : FV S128x128) (b : FV S128)
    (hc : (⟨1, ![128]⟩ : Shape).ShapeCasts ⟨2, ![1, 128]⟩) (i : Fin 100000) (q : Fin 128) :
    Fn.dense h a Ws Wn b (ix2 i q) = Sage.dense h a Ws Wn (shapeCast ⟨2, ![1, 128]⟩ b hc) (ix2 i q) := by
  unfold Fn.dense
  show Host.dotGeneral dot_S100000x128_S128x128_S100000x128_1_0_0_1_n_n none h Ws (ix2 i q)
      + Host.dotGeneral dot_S100000x128_S128x128_S100000x128_1_0_0_1_n_n none a Wn (ix2 i q)
      + broadcastInDim S100000x128 ![0, 1] bcast_S1x128_S100000x128_0_1 (broadcastInDim S1x128 ![1] bcast_S128_S1x128_1 b) (ix2 i q) = _
  rw [MatProd.dotGeneral_eq plainN, MatProd.dotGeneral_eq plainN, bcast_rows_apply,
    ← Cert.LibRowOfVector.row_of_vector b hc bcast_S128_S1x128_1]
  rfl

/-- The reference's first layer (dense half, then rectifier) is the specification's. -/
theorem layer_relu_eq (h a : FV S100000x128) (Ws Wn : FV S128x128) (b : FV S128)
    (hc : (⟨1, ![128]⟩ : Shape).ShapeCasts ⟨2, ![1, 128]⟩) :
    Fn.relu (Fn.dense h a Ws Wn b) = Sage.denseRelu h a Ws Wn (shapeCast ⟨2, ![1, 128]⟩ b hc) := by
  funext j
  obtain ⟨i, q, rfl⟩ : ∃ (i : Fin 100000) (q : Fin 128), j = ix2 i q := ⟨j 0, j 1, eq_ix2 j⟩
  rw [relu_apply, dense_apply h a Ws Wn b hc]
  rfl

/-- The reference's second layer (dense half only) is the specification's. -/
theorem layer_eq (h a : FV S100000x128) (Ws Wn : FV S128x128) (b : FV S128)
    (hc : (⟨1, ![128]⟩ : Shape).ShapeCasts ⟨2, ![1, 128]⟩) :
    Fn.dense h a Ws Wn b = Sage.dense h a Ws Wn (shapeCast ⟨2, ![1, 128]⟩ b hc) := by
  funext j
  obtain ⟨i, q, rfl⟩ : ∃ (i : Fin 100000) (q : Fin 128), j = ix2 i q := ⟨j 0, j 1, eq_ix2 j⟩
  exact dense_apply h a Ws Wn b hc i q

/-- The reference's edge scorer on the entrywise product of two stacks of rows is the specification's score of the
    two stacks. -/
theorem score_eq (zs zd : FV S100000x128) (W1 : FV S128x128) (b1 : FV S128) (W2 : FV S128x1) (b2 : FV S1)
    (hc1 : (⟨1, ![128]⟩ : Shape).ShapeCasts ⟨2, ![1, 128]⟩) (hc2 : (⟨1, ![1]⟩ : Shape).ShapeCasts ⟨2, ![1, 1]⟩) :
    Fn.score (mulf zs zd) W1 b1 W2 b2
      = Sage.score zs zd W1 (shapeCast ⟨2, ![1, 128]⟩ b1 hc1) W2 (shapeCast ⟨2, ![1, 1]⟩ b2 hc2) := by
  funext j
  obtain ⟨i, q, rfl⟩ : ∃ (i : Fin 100000) (q : Fin 1), j = ix2 i q := ⟨j 0, j 1, eq_ix2 j⟩
  unfold Fn.score
  show Host.dotGeneral dot_S100000x128_S128x1_S100000x1_1_0_0_1_n_n none
        (Fn.relu (addf (Host.dotGeneral dot_S100000x128_S128x128_S100000x128_1_0_0_1_n_n none (mulf zs zd) W1)
          (broadcastInDim S100000x128 ![0, 1] bcast_S1x128_S100000x128_0_1 (broadcastInDim S1x128 ![1] bcast_S128_S1x128_1 b1)))) W2 (ix2 i q)
      + broadcastInDim S100000x1 ![0, 1] bcast_S1x1_S100000x1_0_1 (broadcastInDim S1x1 ![1] bcast_S1_S1x1_1 b2) (ix2 i q) = _
  rw [DotPlain.dotGeneral_apply plainN1, bcast_rows_apply, ← Cert.LibRowOfVector.row_of_vector b2 hc2 bcast_S1_S1x1_1]
  refine congrArg (· + shapeCast ⟨2, ![1, 1]⟩ b2 hc2 (ix2 (0 : Fin 1) q)) (Finset.sum_congr rfl fun k _ => ?_)
  refine congrArg (· * W2 (ix2 k q)) ?_
  rw [relu_apply]
  show max (Host.dotGeneral dot_S100000x128_S128x128_S100000x128_1_0_0_1_n_n none (mulf zs zd) W1 (ix2 i k)
      + broadcastInDim S100000x128 ![0, 1] bcast_S1x128_S100000x128_0_1 (broadcastInDim S1x128 ![1] bcast_S128_S1x128_1 b1) (ix2 i k)) Sage.zero = _
  rw [DotPlain.dotGeneral_apply plainN, bcast_rows_apply, ← Cert.LibRowOfVector.row_of_vector b1 hc1 bcast_S128_S1x128_1]
  rfl

end Cert.Bridge

end
-- ==== Proof.lean ====
/-
  The certificate: a two-layer mean-aggregating graph network followed by an edge scorer, computed by three row-tiled
  regions among host gathers and scatters, against the same network written with whole-array operations.

  Both programs gather rows at the edges' sources, sum them into the edges' targets and divide by the in-degree with
  the same host operations; they differ in how the dense parts are computed. The tiled program computes each layer's
  h·W_self + mean·W_neigh + b (and the rectifier) on blocks of 5000 rows, and scores the positive and the negative
  candidate edges in one pass over their rows laid end to end, cutting the column of scores in two afterwards; the
  reference computes each on the whole arrays, the two lists of candidate edges separately. Every entry of a layer or
  of the scores depends on its own row only, and a matrix-unit product into a zero accumulator, a host matrix product,
  a bias row obtained by a reshape or by a broadcast, and the rectifier against a broadcast zero are the same sums,
  entries and maxima on the extended reals. So the results agree entry by entry, with no hypothesis on the inputs:
  no law that fails at an infinity is used, only the reading of sums term by term.

  The three frame claims are the generated frames (the reference's is its generated run with the results dropped);
  the idealized kernel is the kernel's own text read at the ideal instance, so nothing is owed for it.
-/
import proofs.«105080_j59304908423843_1_alg».proof.Defs
import proofs.«105080_j59304908423843_1_alg».proof.Proof.Gen.Kernel
import proofs.«105080_j59304908423843_1_alg».proof.Proof.Gen.Kernel.Frame
import proofs.«105080_j59304908423843_1_alg».proof.Proof.Gen.KernelIdeal
import proofs.«105080_j59304908423843_1_alg».proof.Proof.Gen.KernelIdeal.Frame
import proofs.«105080_j59304908423843_1_alg».proof.Proof.Gen.ReferenceIdeal
import proofs.«105080_j59304908423843_1_alg».proof.Proof.Gen.ReferenceIdeal.Run
import proofs.«105080_j59304908423843_1_alg».proof.Proof.Gen.Pre_finite_inputs
import proofs.«105080_j59304908423843_1_alg».proof.Proof.KerRun
import proofs.«105080_j59304908423843_1_alg».proof.Proof.KerOut
import proofs.«105080_j59304908423843_1_alg».proof.Proof.RefValue
import proofs.«105080_j59304908423843_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-! ## The kernel program's run, its two results named -/

section KernelRun

open Cert.KernelIdeal Cert.KernelIdeal.Gen Cert.KernelIdeal.KerValue

/-- The idealized kernel program terminates with its first result at the upper half of the stacked scores, its second
    at the lower half — the scores of the positive and of the negative candidate edges —, and its arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v75) = res0 m c
      ∧ r.2.mem ((c.tc : Thread nD τ).loc main_v76) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
     ⟨(h c _ (mem_uc main_v75 (by decide))).trans (W7_v75 m ρ c),
      (h c _ (mem_uc main_v76 (by decide))).trans (W7_v76 m ρ c),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c),
      (h c _ (mem_uc main_arg13 (by decide))).trans (W7_main_arg13 m ρ c),
      (h c _ (mem_uc main_arg14 (by decide))).trans (W7_main_arg14 m ρ c),
      (h c _ (mem_uc main_arg15 (by decide))).trans (W7_main_arg15 m ρ c),
      (h c _ (mem_uc main_arg16 (by decide))).trans (W7_main_arg16 m ρ c),
      (h c _ (mem_uc main_arg17 (by decide))).trans (W7_main_arg17 m ρ c),
      (h c _ (mem_uc main_arg18 (by decide))).trans (W7_main_arg18 m ρ c)⟩)
    (Cert.KernelIdeal.KerRun.run_all (F := Ideal) m ρ)

end KernelRun

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

set_option maxHeartbeats 4000000 in
/-- From memories agreeing on the arguments both programs end with the scores of the positive candidate edges as the
    first result and of the negative ones as the second: the tiled program's halves of the stacked scores are the
    reference's two separate scores. -/
theorem algebraic : Cert.algebraic_KernelIdeal_ReferenceIdeal := by
  intro m ρ m' ρ' _ hagree
  refine ⟨fun c => Cert.KernelIdeal.KerValue.res0 m c, fun c => Cert.KernelIdeal.KerValue.res1 m c, kernel_run m ρ, ?_⟩
  refine (θ_run Cert.ReferenceIdeal.defs _ _).mono (fun r h c => ?_) (Cert.ReferenceIdeal.Value.run (F := Ideal) m' ρ')
  obtain ⟨e0, e1, e2, e3, e4, e5, e6, e7, e8, e9, e10, e11, e12, e13, e14, e15, e16, e17, e18⟩ := hagree c
  -- the second layer's features are the same array in both programs
  have hfeat : Cert.ReferenceIdeal.RefValue.h2 m' c = Cert.KernelIdeal.KerValue.h2 m c := by
    unfold Cert.ReferenceIdeal.RefValue.h2 Cert.ReferenceIdeal.RefValue.h1 Cert.KernelIdeal.KerValue.h2 Cert.KernelIdeal.KerValue.h1
    rw [e0, e1, e2, e3, e4, e9, e10, e11, e12, e13, e14,
      Cert.Bridge.layer_relu_eq _ _ _ _ _ Cert.KernelIdeal.Facts₀.shapeCasts_S128_S1x128,
      Cert.Bridge.layer_eq _ _ _ _ _ Cert.KernelIdeal.Facts₀.shapeCasts_S128_S1x128]
    rfl
  refine ⟨(h c).1.trans ?_, (h c).2.1.trans ?_, (h c).2.2⟩
  · rw [Cert.ReferenceIdeal.RefValue.out0_eq, hfeat, e5, e6, e15, e16, e17, e18,
      Cert.Bridge.score_eq _ _ _ _ _ _ Cert.KernelIdeal.Facts₀.shapeCasts_S128_S1x128 Cert.KernelIdeal.Facts₀.shapeCasts_S1_S1x1]
    rfl
  · rw [Cert.ReferenceIdeal.RefValue.out1_eq, hfeat, e7, e8, e15, e16, e17, e18,
      Cert.Bridge.score_eq _ _ _ _ _ _ Cert.KernelIdeal.Facts₀.shapeCasts_S128_S1x128 Cert.KernelIdeal.Facts₀.shapeCasts_S1_S1x1]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
